-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_1200" .f32 0x3A5A740E#32 ((1 / 1200 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x6x1024x512 : Shape := ⟨4, ![4, 6, 1024, 512]⟩
abbrev S512x512 : Shape := ⟨2, ![512, 512]⟩
abbrev S512 : Shape := ⟨1, ![512]⟩
abbrev S_ : Shape := ⟨0, ![]⟩

class Facts : Prop where
  bcast_S_S4x6x1024x512 : S_.BroadcastsInDim S4x6x1024x512 (![] : Fin 0 → Fin S4x6x1024x512.rank)
  reducesTo_S4x6x1024x512_S_d0_1_2_3 : S4x6x1024x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x6x1024x512 .f32) (main_arg1 : FVec F S4x6x1024x512 .f32) (main_arg2 : FVec F S4x6x1024x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S4x6x1024x512 .f32 := Host.absf main_arg0
  let main_cst : FVec F S_ .f32 := constant S_ .f32 0x7F800000#32
  let main_v1 : FVec F S4x6x1024x512 .f32 := broadcastInDim S4x6x1024x512 ![] bcast_S_S4x6x1024x512 main_cst
  let main_v2 : IVec S4x6x1024x512 1 := cmpf .olt main_v0 main_v1
  let main_c : IVec S_ 1 := constantI S_ 1 1#1
  let main_v3 : IVec S_ 1 := (fun x v => Host.reduce IntOp.andi x v reducesTo_S4x6x1024x512_S_d0_1_2_3 h_S_) main_v2 main_c
  let main_v4 : FVec F S4x6x1024x512 .f32 := Host.absf main_arg1
  let main_cst_0 : FVec F S_ .f32 := constant S_ .f32 0x7F800000#32
  let main_v5 : FVec F S4x6x1024x512 .f32 := broadcastInDim S4x6x1024x512 ![] bcast_S_S4x6x1024x512 main_cst_0
  let main_v6 : IVec S4x6x1024x512 1 := cmpf .olt main_v4 main_v5
  let main_c_1 : IVec S_ 1 := constantI S_ 1 1#1
  let main_v7 : IVec S_ 1 := (fun x v => Host.reduce IntOp.andi x v reducesTo_S4x6x1024x512_S_d0_1_2_3 h_S_) main_v6 main_c_1
  let main_v8 : IVec S_ 1 := andi main_v3 main_v7
  let main_v9 : FVec F S4x6x1024x512 .f32 := Host.absf main_arg2
  let main_cst_2 : FVec F S_ .f32 := constant S_ .f32 0x7F800000#32
  let main_v10 : FVec F S4x6x1024x512 .f32 := broadcastInDim S4x6x1024x512 ![] bcast_S_S4x6x1024x512 main_cst_2
  let main_v11 : IVec S4x6x1024x512 1 := cmpf .olt main_v9 main_v10
  let main_c_3 : IVec S_ 1 := constantI S_ 1 1#1
  let main_v12 : IVec S_ 1 := (fun x v => Host.reduce IntOp.andi x v reducesTo_S4x6x1024x512_S_d0_1_2_3 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S4x6x1024x512 : Shape := ⟨4, ![4, 6, 1024, 512]⟩
abbrev S512x512 : Shape := ⟨2, ![512, 512]⟩
abbrev S512 : Shape := ⟨1, ![512]⟩
abbrev S24x1024x512 : Shape := ⟨3, ![24, 1024, 512]⟩
abbrev S512x8x64 : Shape := ⟨3, ![512, 8, 64]⟩
abbrev S8x512x64 : Shape := ⟨3, ![8, 512, 64]⟩
abbrev S8x1x64 : Shape := ⟨3, ![8, 1, 64]⟩
abbrev S24x8x1024x1024 : Shape := ⟨4, ![24, 8, 1024, 1024]⟩
abbrev S24x8x1x64 : Shape := ⟨4, ![24, 8, 1, 64]⟩
abbrev S1x1024x512 : Shape := ⟨3, ![1, 1024, 512]⟩
abbrev S1x512x64 : Shape := ⟨3, ![1, 512, 64]⟩
abbrev S1x1x64 : Shape := ⟨3, ![1, 1, 64]⟩
abbrev S1x1x1024x1024 : Shape := ⟨4, ![1, 1, 1024, 1024]⟩
abbrev S1x1x1x64 : Shape := ⟨4, ![1, 1, 1, 64]⟩
abbrev S1024x512 : Shape := ⟨2, ![1024, 512]⟩
abbrev S512x64 : Shape := ⟨2, ![512, 64]⟩
abbrev S1024x64 : Shape := ⟨2, ![1024, 64]⟩
abbrev S64 : Shape := ⟨1, ![64]⟩
abbrev S1x64 : Shape := ⟨2, ![1, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S4x6x8x1024x1024 : Shape := ⟨5, ![4, 6, 8, 1024, 1024]⟩
abbrev S4x6x8x64 : Shape := ⟨4, ![4, 6, 8, 64]⟩
abbrev S4x6x64x8 : Shape := ⟨4, ![4, 6, 64, 8]⟩
abbrev S4x6x1x512 : Shape := ⟨4, ![4, 6, 1, 512]⟩
abbrev S24x512 : Shape := ⟨2, ![24, 512]⟩
abbrev S1x512 : Shape := ⟨2, ![1, 512]⟩

abbrev nBuf : Space → Nat
  | .hbm => 36
  | .vmem => 23
  | .smem => 0
  | _ => 0

abbrev bufTy : (tb : Table) → Fin (tcTables nBuf tb) → BufTy
  | .hbm, ⟨0, _⟩ => ⟨S4x6x1024x512, .f32⟩
  | .hbm, ⟨1, _⟩ => ⟨S4x6x1024x512, .f32⟩
  | .hbm, ⟨2, _⟩ => ⟨S4x6x1024x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S24x1024x512, .f32⟩
  | .hbm, ⟨12, _⟩ => ⟨S24x1024x512, .f32⟩
  | .hbm, ⟨13, _⟩ => ⟨S24x1024x512, .f32⟩
  | .hbm, ⟨14, _⟩ => ⟨S512x512, .f32⟩
  | .hbm, ⟨15, _⟩ => ⟨S512x8x64, .f32⟩
  | .hbm, ⟨16, _⟩ => ⟨S8x512x64, .f32⟩
  | .hbm, ⟨17, _⟩ => ⟨S512x512, .f32⟩
  | .hbm, ⟨18, _⟩ => ⟨S512x8x64, .f32⟩
  | .hbm, ⟨19, _⟩ => ⟨S8x512x64, .f32⟩
  | .hbm, ⟨20, _⟩ => ⟨S512x512, .f32⟩
  | .hbm, ⟨21, _⟩ => ⟨S512x8x64, .f32⟩
  | .hbm, ⟨22, _⟩ => ⟨S8x512x64, .f32⟩
  | .hbm, ⟨23, _⟩ => ⟨S8x1x64, .f32⟩
  | .hbm, ⟨24, _⟩ => ⟨S8x1x64, .f32⟩
  | .hbm, ⟨25, _⟩ => ⟨S8x1x64, .f32⟩
  | .hbm, ⟨26, _⟩ => ⟨S24x8x1024x1024, .f32⟩
  | .hbm, ⟨27, _⟩ => ⟨S24x8x1x64, .f32⟩
  | .hbm, ⟨28, _⟩ => ⟨S4x6x8x1024x1024, .f32⟩
  | .hbm, ⟨29, _⟩ => ⟨S4x6x8x64, .f32⟩
  | .hbm, ⟨30, _⟩ => ⟨S4x6x64x8, .f32⟩
  | .hbm, ⟨31, _⟩ => ⟨S4x6x1x512, .f32⟩
  | .hbm, ⟨32, _⟩ => ⟨S24x512, .f32⟩
  | .hbm, ⟨33, _⟩ => ⟨S512x512, .f32⟩
  | .hbm, ⟨34, _⟩ => ⟨S24x512, .f32⟩
  | .hbm, ⟨35, _⟩ => ⟨S4x6x1x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x1024x1024, .f32⟩
  | .local _ .vmem, ⟨16, _⟩ => ⟨S1x1x1024x1024, .f32⟩
  | .local _ .vmem, ⟨17, _⟩ => ⟨S1x1x1x64, .f32⟩
  | .local _ .vmem, ⟨18, _⟩ => ⟨S1x1x1x64, .f32⟩
  | .local _ .vmem, ⟨19, _⟩ => ⟨S24x512, .f32⟩
  | .local _ .vmem, ⟨20, _⟩ => ⟨S512x512, .f32⟩
  | .local _ .vmem, ⟨21, _⟩ => ⟨S512, .f32⟩
  | .local _ .vmem, ⟨22, _⟩ => ⟨S24x512, .f32⟩
  | _, _ => ⟨S4x6x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem1_0 : DmaSem sig := 20
abbrev cc1_sem2_0 : DmaSem sig := 21
abbrev cc1_sem3_0 : DmaSem sig := 22

abbrev nD : Nat := 1
abbrev τ : Topo := Topo.v7x

variable {F : FTy → Type} [FloatOps F]

abbrev grid0 : Pipeline.Grid := ⟨2, ![24, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S24x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S24x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

class Facts₀ : Prop where
  shapeCasts_S4x6x1024x512_S24x1024x512 : S4x6x1024x512.ShapeCasts S24x1024x512
  transposes_S512x512_S512x512_1_0 : S512x512.Transposes [1, 0] S512x512
  shapeCasts_S512x512_S512x8x64 : S512x512.ShapeCasts S512x8x64
  transposes_S512x8x64_S8x512x64_1_0_2 : S512x8x64.Transposes [1, 0, 2] S8x512x64
  shapeCasts_S512_S8x1x64 : S512.ShapeCasts S8x1x64
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S1024x64 : S1x64.Broadcasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  reduces_S1024x64_S64 : S1024x64.Reduces [0] S64
  inb_S1x1x1x64_S1x1x1x64_0_0_0_0 : ∀ a, (![0, 0, 0, 0] : Fin 4 → Nat) a + S1x1x1x64.size a ≤ S1x1x1x64.size a
  h_S1x1x1x64 : 0 < S1x1x1x64.numel
  shapeCasts_S1x1x1x64_S1x64 : S1x1x1x64.ShapeCasts S1x64
  shapeCasts_S1x64_S1x1x1x64 : S1x64.ShapeCasts S1x1x1x64
  shapeCasts_S24x8x1024x1024_S4x6x8x1024x1024 : S24x8x1024x1024.ShapeCasts S4x6x8x1024x1024
  shapeCasts_S24x8x1x64_S4x6x8x64 : S24x8x1x64.ShapeCasts S4x6x8x64
  transposes_S4x6x8x64_S4x6x64x8_0_1_3_2 : S4x6x8x64.Transposes [0, 1, 3, 2] S4x6x64x8
  shapeCasts_S4x6x64x8_S4x6x1x512 : S4x6x64x8.ShapeCasts S4x6x1x512
  shapeCasts_S4x6x1x512_S24x512 : S4x6x1x512.ShapeCasts S24x512
  inb_S24x512_S24x512_0_0 : ∀ a, (![0, 0] : Fin 2 → Nat) a + S24x512.size a ≤ S24x512.size a
  h_S24x512 : 0 < S24x512.numel
  shapeCasts_S24x512_S24x512 : S24x512.ShapeCasts S24x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S24x512 : S1x512.Broadcasts S24x512
  shapeCasts_S24x512_S4x6x1x512 : S24x512.ShapeCasts S4x6x1x512
  dot_S1024x512_S512x64_S1024x64_1_0_0_1_n_n_wf : DotDims.WF S1024x512 S512x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S24x512_S512x512_S24x512_1_0_0_1_n_n_wf : DotDims.WF S24x512 S512x512 S24x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S24x1024x512.size a
  hwx0_0 : ∀ i : grid0.Coords, EltTy.bits .f32 = 32 ∨ (Rect.block (s := S24x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S24x1024x512.size a
  hwx0_1 : ∀ i : grid0.Coords, EltTy.bits .f32 = 32 ∨ (Rect.block (s := S24x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S24x1024x512.size a
  hwx0_2 : ∀ i : grid0.Coords, EltTy.bits .f32 = 32 ∨ (Rect.block (s := S24x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S8x512x64.size a
  hwx0_3 : ∀ i : grid0.Coords, EltTy.bits .f32 = 32 ∨ (Rect.block (s := S8x512x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x512x64.size a
  hwx0_4 : ∀ i : grid0.Coords, EltTy.bits .f32 = 32 ∨ (Rect.block (s := S8x512x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x512x64.size a
  hwx0_5 : ∀ i : grid0.Coords, EltTy.bits .f32 = 32 ∨ (Rect.block (s := S8x512x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S8x1x64.size a
  hwx0_6 : ∀ i : grid0.Coords, EltTy.bits .f32 = 32 ∨ (Rect.block (s := S8x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S8x1x64.size a
  hwx0_7 : ∀ i : grid0.Coords, EltTy.bits .f32 = 32 ∨ (Rect.block (s := S8x1x64) S1x1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x64.size a ≤ S8x1x64.size a
  hwx0_8 : ∀ i : grid0.Coords, EltTy.bits .f32 = 32 ∨ (Rect.block (s := S8x1x64) S1x1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024x1024.size a ≤ S24x8x1024x1024.size a
  hwx0_9 : ∀ i : grid0.Coords, EltTy.bits .f32 = 32 ∨ (Rect.block (s := S24x8x1024x1024) S1x1x1024x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1x64.size a ≤ S24x8x1x64.size a
  hwx0_10 : ∀ i : grid0.Coords, EltTy.bits .f32 = 32 ∨ (Rect.block (s := S24x8x1x64) S1x1x1x64.size (cc0_transform_10 i) (hinb0_10 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S24x512.size a ≤ S24x512.size a
  hwx1_0 : ∀ i : grid1.Coords, EltTy.bits .f32 = 32 ∨ (Rect.block (s := S24x512) S24x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S24x512.size a ≤ S24x512.size a
  hwx1_3 : ∀ i : grid1.Coords, EltTy.bits .f32 = 32 ∨ (Rect.block (s := S24x512) S24x512.size (cc1_transform_3 i) (hinb1_3 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S24x512_S512x512_S24x512_1_0_0_1_n_n : DotDims S24x512 S512x512 S24x512 where
  lhsContracting := [1]
  rhsContracting := [0]
  lhsNonContracting := [0]
  rhsNonContracting := [1]
  lhsBatch := []
  rhsBatch := []
  wf := dot_S24x512_S512x512_S24x512_1_0_0_1_n_n_wf

abbrev win0_0 : Pipeline.Window sig grid0 :=
  Pipeline.Window.ofSpec (Memref.whole main_v0) S1x1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S1x1x1024x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S1x1x1x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S24x512.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v21) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S24x512.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x6x1024x512 : Shape := ⟨4, ![4, 6, 1024, 512]⟩
abbrev S512x512 : Shape := ⟨2, ![512, 512]⟩
abbrev S512 : Shape := ⟨1, ![512]⟩
abbrev S1x1x1x512 : Shape := ⟨4, ![1, 1, 1, 512]⟩
abbrev S4x6x1024x8x64 : Shape := ⟨5, ![4, 6, 1024, 8, 64]⟩
abbrev S4x6x8x1024x64 : Shape := ⟨5, ![4, 6, 8, 1024, 64]⟩
abbrev S4x6x8x1024x1024 : Shape := ⟨5, ![4, 6, 8, 1024, 1024]⟩
abbrev S_ : Shape := ⟨0, ![]⟩
abbrev S4x6x8x1024 : Shape := ⟨4, ![4, 6, 8, 1024]⟩
abbrev S4x6x8x1024x1 : Shape := ⟨5, ![4, 6, 8, 1024, 1]⟩
abbrev S4x6x8x64 : Shape := ⟨4, ![4, 6, 8, 64]⟩
abbrev S4x6x64x8 : Shape := ⟨4, ![4, 6, 64, 8]⟩
abbrev S4x6x1x512 : Shape := ⟨4, ![4, 6, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x6x1024x512, .f32⟩
  | .hbm, ⟨1, _⟩ => ⟨S4x6x1024x512, .f32⟩
  | .hbm, ⟨2, _⟩ => ⟨S4x6x1024x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4x6x1024x512, .f32⟩
  | .hbm, ⟨12, _⟩ => ⟨S1x1x1x512, .f32⟩
  | .hbm, ⟨13, _⟩ => ⟨S4x6x1024x512, .f32⟩
  | .hbm, ⟨14, _⟩ => ⟨S4x6x1024x512, .f32⟩
  | .hbm, ⟨15, _⟩ => ⟨S4x6x1024x8x64, .f32⟩
  | .hbm, ⟨16, _⟩ => ⟨S4x6x8x1024x64, .f32⟩
  | .hbm, ⟨17, _⟩ => ⟨S4x6x1024x512, .f32⟩
  | .hbm, ⟨18, _⟩ => ⟨S1x1x1x512, .f32⟩
  | .hbm, ⟨19, _⟩ => ⟨S4x6x1024x512, .f32⟩
  | .hbm, ⟨20, _⟩ => ⟨S4x6x1024x512, .f32⟩
  | .hbm, ⟨21, _⟩ => ⟨S4x6x1024x8x64, .f32⟩
  | .hbm, ⟨22, _⟩ => ⟨S4x6x8x1024x64, .f32⟩
  | .hbm, ⟨23, _⟩ => ⟨S4x6x1024x512, .f32⟩
  | .hbm, ⟨24, _⟩ => ⟨S1x1x1x512, .f32⟩
  | .hbm, ⟨25, _⟩ => ⟨S4x6x1024x512, .f32⟩
  | .hbm, ⟨26, _⟩ => ⟨S4x6x1024x512, .f32⟩
  | .hbm, ⟨27, _⟩ => ⟨S4x6x1024x8x64, .f32⟩
  | .hbm, ⟨28, _⟩ => ⟨S4x6x8x1024x64, .f32⟩
  | .hbm, ⟨29, _⟩ => ⟨S4x6x8x1024x1024, .f32⟩
  | .hbm, ⟨30, _⟩ => ⟨S_, .f32⟩
  | .hbm, ⟨31, _⟩ => ⟨S_, .f32⟩
  | .hbm, ⟨32, _⟩ => ⟨S4x6x8x1024x1024, .f32⟩
  | .hbm, ⟨33, _⟩ => ⟨S4x6x8x1024x1024, .f32⟩
  | .hbm, ⟨34, _⟩ => ⟨S_, .f32⟩
  | .hbm, ⟨35, _⟩ => ⟨S4x6x8x1024x1024, .f32⟩
  | .hbm, ⟨36, _⟩ => ⟨S4x6x8x1024x1024, .f32⟩
  | .hbm, ⟨37, _⟩ => ⟨S_, .f32⟩
  | .hbm, ⟨38, _⟩ => ⟨S4x6x8x1024, .f32⟩
  | .hbm, ⟨39, _⟩ => ⟨S_, .f32⟩
  | .hbm, ⟨40, _⟩ => ⟨S4x6x8x1024, .f32⟩
  | .hbm, ⟨41, _⟩ => ⟨S4x6x8x1024, .f32⟩
  | .hbm, ⟨42, _⟩ => ⟨S4x6x8x1024x1, .f32⟩
  | .hbm, ⟨43, _⟩ => ⟨S4x6x8x1024x1024, .f32⟩
  | .hbm, ⟨44, _⟩ => ⟨S4x6x8x1024x1024, .f32⟩
  | .hbm, ⟨45, _⟩ => ⟨S4x6x8x1024x1024, .f32⟩
  | .hbm, ⟨46, _⟩ => ⟨S_, .f32⟩
  | .hbm, ⟨47, _⟩ => ⟨S4x6x8x1024, .f32⟩
  | .hbm, ⟨48, _⟩ => ⟨S4x6x8x1024x1, .f32⟩
  | .hbm, ⟨49, _⟩ => ⟨S4x6x8x1024x1024, .f32⟩
  | .hbm, ⟨50, _⟩ => ⟨S4x6x8x1024x1024, .f32⟩
  | .hbm, ⟨51, _⟩ => ⟨S4x6x8x1024x64, .f32⟩
  | .hbm, ⟨52, _⟩ => ⟨S_, .f32⟩
  | .hbm, ⟨53, _⟩ => ⟨S4x6x8x64, .f32⟩
  | .hbm, ⟨54, _⟩ => ⟨S_, .f32⟩
  | .hbm, ⟨55, _⟩ => ⟨S4x6x8x64, .f32⟩
  | .hbm, ⟨56, _⟩ => ⟨S4x6x8x64, .f32⟩
  | .hbm, ⟨57, _⟩ => ⟨S4x6x64x8, .f32⟩
  | .hbm, ⟨58, _⟩ => ⟨S4x6x1x512, .f32⟩
  | .hbm, ⟨59, _⟩ => ⟨S4x6x1x512, .f32⟩
  | .hbm, ⟨60, _⟩ => ⟨S1x1x1x512, .f32⟩
  | .hbm, ⟨61, _⟩ => ⟨S4x6x1x512, .f32⟩
  | .hbm, ⟨62, _⟩ => ⟨S4x6x1x512, .f32⟩
  | _, _ => ⟨S4x6x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x6x1024x512_0_1_2_3 : S1x1x1x512.BroadcastsInDim S4x6x1024x512 (![0, 1, 2, 3] : Fin 4 → Fin S4x6x1024x512.rank)
  shapeCasts_S4x6x1024x512_S4x6x1024x8x64 : S4x6x1024x512.ShapeCasts S4x6x1024x8x64
  transposes_S4x6x1024x8x64_S4x6x8x1024x64_0_1_3_2_4 : S4x6x1024x8x64.Transposes [0, 1, 3, 2, 4] S4x6x8x1024x64
  bcast_S_S4x6x8x1024x1024 : S_.BroadcastsInDim S4x6x8x1024x1024 (![] : Fin 0 → Fin S4x6x8x1024x1024.rank)
  reducesTo_S4x6x8x1024x1024_S4x6x8x1024_d4 : S4x6x8x1024x1024.ReducesTo [4] S4x6x8x1024
  h_S_ : 0 < S_.numel
  bcast_S_S4x6x8x1024 : S_.BroadcastsInDim S4x6x8x1024 (![] : Fin 0 → Fin S4x6x8x1024.rank)
  bcast_S4x6x8x1024_S4x6x8x1024x1_0_1_2_3 : S4x6x8x1024.BroadcastsInDim S4x6x8x1024x1 (![0, 1, 2, 3] : Fin 4 → Fin S4x6x8x1024x1.rank)
  bcast_S4x6x8x1024x1_S4x6x8x1024x1024_0_1_2_3_4 : S4x6x8x1024x1.BroadcastsInDim S4x6x8x1024x1024 (![0, 1, 2, 3, 4] : Fin 5 → Fin S4x6x8x1024x1024.rank)
  reducesTo_S4x6x8x1024x64_S4x6x8x64_d3 : S4x6x8x1024x64.ReducesTo [3] S4x6x8x64
  bcast_S_S4x6x8x64 : S_.BroadcastsInDim S4x6x8x64 (![] : Fin 0 → Fin S4x6x8x64.rank)
  transposes_S4x6x8x64_S4x6x64x8_0_1_3_2 : S4x6x8x64.Transposes [0, 1, 3, 2] S4x6x64x8
  shapeCasts_S4x6x64x8_S4x6x1x512 : S4x6x64x8.ShapeCasts S4x6x1x512
  bcast_S1x1x1x512_S4x6x1x512_0_1_2_3 : S1x1x1x512.BroadcastsInDim S4x6x1x512 (![0, 1, 2, 3] : Fin 4 → Fin S4x6x1x512.rank)
  dot_S4x6x1024x512_S512x512_S4x6x1024x512_3_1_012_0_n_n_wf : DotDims.WF S4x6x1024x512 S512x512 S4x6x1024x512 [3] [1] [0, 1, 2] [0] [] []
  dot_S4x6x8x1024x64_S4x6x8x1024x64_S4x6x8x1024x1024_4_4_3_3_012_012_wf : DotDims.WF S4x6x8x1024x64 S4x6x8x1024x64 S4x6x8x1024x1024 [4] [4] [3] [3] [0, 1, 2] [0, 1, 2]
  dot_S4x6x8x1024x1024_S4x6x8x1024x64_S4x6x8x1024x64_4_3_3_4_012_012_wf : DotDims.WF S4x6x8x1024x1024 S4x6x8x1024x64 S4x6x8x1024x64 [4] [3] [3] [4] [0, 1, 2] [0, 1, 2]
  dot_S4x6x1x512_S512x512_S4x6x1x512_3_1_012_0_n_n_wf : DotDims.WF S4x6x1x512 S512x512 S4x6x1x512 [3] [1] [0, 1, 2] [0] [] []

variable [Facts₀]

def dot_S4x6x1024x512_S512x512_S4x6x1024x512_3_1_012_0_n_n : DotDims S4x6x1024x512 S512x512 S4x6x1024x512 where
  lhsContracting := [3]
  rhsContracting := [1]
  lhsNonContracting := [0, 1, 2]
  rhsNonContracting := [0]
  lhsBatch := []
  rhsBatch := []
  wf := dot_S4x6x1024x512_S512x512_S4x6x1024x512_3_1_012_0_n_n_wf
def dot_S4x6x8x1024x64_S4x6x8x1024x64_S4x6x8x1024x1024_4_4_3_3_012_012 : DotDims S4x6x8x1024x64 S4x6x8x1024x64 S4x6x8x1024x1024 where
  lhsContracting := [4]
  rhsContracting := [4]
  lhsNonContracting := [3]
  rhsNonContracting := [3]
  lhsBatch := [0, 1, 2]
  rhsBatch := [0, 1, 2]
  wf := dot_S4x6x8x1024x64_S4x6x8x1024x64_S4x6x8x1024x1024_4_4_3_3_012_012_wf
def dot_S4x6x8x1024x1024_S4x6x8x1024x64_S4x6x8x1024x64_4_3_3_4_012_012 : DotDims S4x6x8x1024x1024 S4x6x8x1024x64 S4x6x8x1024x64 where
  lhsContracting := [4]
  rhsContracting := [3]
  lhsNonContracting := [3]
  rhsNonContracting := [4]
  lhsBatch := [0, 1, 2]
  rhsBatch := [0, 1, 2]
  wf := dot_S4x6x8x1024x1024_S4x6x8x1024x64_S4x6x8x1024x64_4_3_3_4_012_012_wf
def dot_S4x6x1x512_S512x512_S4x6x1x512_3_1_012_0_n_n : DotDims S4x6x1x512 S512x512 S4x6x1x512 where
  lhsContracting := [3]
  rhsContracting := [1]
  lhsNonContracting := [0, 1, 2]
  rhsNonContracting := [0]
  lhsBatch := []
  rhsBatch := []
  wf := dot_S4x6x1x512_S512x512_S4x6x1x512_3_1_012_0_n_n_wf

class Facts : Prop extends Facts₀ where

variable [Facts]
-- ==== Proof.AttnSpec.lean ====
/-
  Multi-head attention with a mean over the queries and an output projection, entry by entry over the
  extended reals.

  For activations `X` of shape [4, 6, 1024, 512], a weight matrix `W` [512, 512] and a bias `β` [512], head `h`
  of the projection is `P(b, g, h, s, j) = Σ_d X(b, g, s, d) · W(64h + j, d) + β(64h + j)`. The scaled score of
  query `s` against key `t` is `(Σ_j Q(·, s, j) · K(·, t, j)) · (1/1200)`; each row of scores goes through the
  softmax `exp(r_t − max r) / Σ_u exp(r_u − max r)`, the maximum folded from minus infinity. The attended values
  are averaged over the queries, `(Σ_s Σ_t p(s, t) · V(t, j)) · (1/1024)`, the 8 × 64 averages of a group are laid
  out lane-major (`d = 8j + h`), and a last projection `Σ_d x_d · Wo(e, d) + bo(e)` gives the output row.

  Also here: the float literals both programs spell, as the numbers they denote, and the two scalar laws that
  join a division by a literal to a product with its reciprocal.
-/
import Idealize.ShloMosaic.PureOps.Ideal
import Idealize.ShloMosaic.Lib.ValueIdx

noncomputable section

namespace Cert.Attn

open Idealize.ShloMosaic Idealize.ShloMosaic.ValueIdx

/-! ## The float literals -/

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

theorem ofBits_64 : Ideal.ofBits .f32 0x42800000#32 = ((64 : ℝ) : EReal) := by
  simp [Ideal.ofBits, Ideal.ieee, -EReal.coe_mul]; norm_num

theorem ofBits_150 : Ideal.ofBits .f32 0x43160000#32 = ((150 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-! ## The scalar laws -/

/-- Dividing by 8 and then by 150 is multiplying by 1/1200, at the infinities too. -/
theorem div_8_div_150 (x : EReal) :
    Ideal.div (Ideal.div x ((8 : ℝ) : EReal)) ((150 : ℝ) : EReal) = x * ((1 / 1200 : ℝ) : EReal) := by
  rw [Ideal.div_coe (by norm_num : (8 : ℝ) ≠ 0), Ideal.div_coe (by norm_num : (150 : ℝ) ≠ 0), mul_assoc,
    ← EReal.coe_mul]
  norm_num

/-- Dividing by 1024 is multiplying by 1/1024, at the infinities too. -/
theorem div_1024 (x : EReal) : Ideal.div x ((1024 : ℝ) : EReal) = x * ((1 / 1024 : ℝ) : EReal) :=
  Ideal.div_coe (by norm_num) x

/-! ## The arrays -/

abbrev Act := (⟨4, ![4, 6, 1024, 512]⟩ : Shape).Idx → EReal
abbrev Mat := (⟨2, ![512, 512]⟩ : Shape).Idx → EReal
abbrev Bias := (⟨1, ![512]⟩ : Shape).Idx → EReal

/-- Lane `j` of head `h` among the 512 model columns. -/
def col (h : Fin 8) (j : Fin 64) : Fin 512 := ⟨h.val * 64 + j.val, by omega⟩

/-- Head `h` of a linear projection at position `s`, lane `j`. -/
def proj (X : Act) (W : Mat) (β : Bias) (b : Fin 4) (g : Fin 6) (h : Fin 8) (s : Fin 1024) (j : Fin 64) : EReal :=
  (∑ d : Fin 512, X (ix4 b g s d) * W (ix2 (col h j) d)) + β (ix1 (col h j))

/-- The scaled score of query `s` against key `t`. -/
def score (Q K : Fin 4 → Fin 6 → Fin 8 → Fin 1024 → Fin 64 → EReal)
    (b : Fin 4) (g : Fin 6) (h : Fin 8) (s t : Fin 1024) : EReal :=
  (∑ j : Fin 64, Q b g h s j * K b g h t j) * ((1 / 1200 : ℝ) : EReal)

/-- The maximum of a row, folded from minus infinity. -/
def rowMax (r : Fin 1024 → EReal) : EReal := (Finset.univ : Finset (Fin 1024)).fold max ⊥ r

/-- The softmax of a row at `t`. -/
def smax (r : Fin 1024 → EReal) (t : Fin 1024) : EReal :=
  Ideal.div (Ideal.exp (r t - rowMax r)) (∑ u : Fin 1024, Ideal.exp (r u - rowMax r))

/-- The attention weight of query `s` on key `t`. -/
def prob (Xq Xk : Act) (Wq : Mat) (bq : Bias) (Wk : Mat) (bk : Bias)
    (b : Fin 4) (g : Fin 6) (h : Fin 8) (s t : Fin 1024) : EReal :=
  smax (fun u => score (proj Xq Wq bq) (proj Xk Wk bk) b g h s u) t

/-- The attended values averaged over the queries, lane `j` of head `h`. -/
def ctx (Xq Xk Xv : Act) (Wq : Mat) (bq : Bias) (Wk : Mat) (bk : Bias) (Wv : Mat) (bv : Bias)
    (b : Fin 4) (g : Fin 6) (h : Fin 8) (j : Fin 64) : EReal :=
  (∑ s : Fin 1024, ∑ t : Fin 1024, prob Xq Xk Wq bq Wk bk b g h s t * proj Xv Wv bv b g h t j)
    * ((1 / 1024 : ℝ) : EReal)

/-- The head of model column `d` in the lane-major layout `d = 8j + h`. -/
def headOf (d : Fin 512) : Fin 8 := ⟨d.val % 8, Nat.mod_lt _ (by norm_num)⟩
/-- The lane of model column `d` in that layout. -/
def laneOf (d : Fin 512) : Fin 64 := ⟨d.val / 8, by have := d.isLt; omega⟩

/-- The output row of group `(b, g)` at column `e`. -/
def out (Xq Xk Xv : Act) (Wq : Mat) (bq : Bias) (Wk : Mat) (bk : Bias) (Wv : Mat) (bv : Bias) (Wo : Mat) (bo : Bias)
    (b : Fin 4) (g : Fin 6) (e : Fin 512) : EReal :=
  (∑ d : Fin 512, ctx Xq Xk Xv Wq bq Wk bk Wv bv b g (headOf d) (laneOf d) * Wo (ix2 e d)) + bo (ix1 e)

/-- The attention weights as one array [4, 6, 8, 1024, 1024]. -/
def attnArr (Xq Xk : Act) (Wq : Mat) (bq : Bias) (Wk : Mat) (bk : Bias) :
    (⟨5, ![4, 6, 8, 1024, 1024]⟩ : Shape).Idx → EReal :=
  fun i => prob Xq Xk Wq bq Wk bk (i 0) (i 1) (i 2) (i 3) (i 4)

/-- The output as one array [4, 6, 1, 512]. -/
def outArr (Xq Xk Xv : Act) (Wq : Mat) (bq : Bias) (Wk : Mat) (bk : Bias) (Wv : Mat) (bv : Bias) (Wo : Mat) (bo : Bias) :
    (⟨4, ![4, 6, 1, 512]⟩ : Shape).Idx → EReal :=
  fun i => out Xq Xk Xv Wq bq Wk bk Wv bv Wo bo (i 0) (i 1) (i 3)

end Cert.Attn

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«171958_j3298534883607_2_alg».proof.Proof.LibRows
import proofs.«171958_j3298534883607_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KernelBody.lean ====
/-
  What the attention kernel's body computes from the blocks it loads, entry by entry over the extended reals.

  One grid point (row `r` of 24, head `h`) loads the activations of the row, [1, 1024, 512] each, the head's weight
  slices [1, 512, 64] and biases [1, 1, 64]. A projection is `Σ_d x(0, s, d) · w(0, d, j) + β(0, 0, j)`; the
  attention weights are the softmax of the rows of `(Σ_j q(s, j) · k(t, j)) · (1/1200)`; the second store is
  `(Σ_s Σ_t p(s, t) · v(t, j)) · (1/1024)`. Changes of float format are the identity here.
-/
import proofs.«171958_j3298534883607_2_alg».proof.Proof.Gen.KernelIdeal.Skeleton
import proofs.«171958_j3298534883607_2_alg».proof.Proof.AttnSpec
import proofs.«171958_j3298534883607_2_alg».proof.Proof.LibPlainMatmul
import proofs.«171958_j3298534883607_2_alg».proof.Proof.LibMatrixReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelBody

open Idealize.ShloMosaic Idealize.ShloMosaic.ValueIdx Cert.KernelIdeal Cert.KernelIdeal.Gen

/-! ## Layouts and reductions at coordinates -/

section Layout
variable {α : Type}

/-- A `[1, 1, a]` array cast to `[a]` reads, at `i`, the operand at `(0, 0, i)`. -/
theorem cast_11a_a {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[1, 1, a, b]` reads, at `(0, 0, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)

end Layout

/-- The maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32)
    (hacc : acc = FKind.maximumf.neutral .f32 hφ) (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single]
  refine congrArg (fun f => (Finset.univ : Finset (Fin n)).fold max (Ideal.ofBits .f32 acc) f) (funext fun k => ?_)
  exact congrArg v (Cert.Rows.lift_row h r k)

/-- The kernel's named scale is 1/1200. -/
theorem inv_1200 : Named.named (F := Ideal) Cert.KernelIdeal.κ "inv_1200" (φ := .f32) 0x3A5A740E#32 = ((1 / 1200 : ℝ) : EReal) :=
  IdealRules.named_const.ideal_named_scalar _ _ _ _ rfl

/-! ## The body's values -/

/-- A projection with its bias, at position `s`, lane `j`. -/
theorem pay4_apply (v0 : Vec Ideal S1x1024x512 .f32) (v9 : Vec Ideal S1x512x64 .f32) (v19 : Vec Ideal S1x1x64 .f32)
    (s : Fin 1024) (j : Fin 64) :
    k0_pay4 (F := Ideal) v0 v9 v19 (ix2 s j)
      = (∑ d : Fin 512, v0 (ix3 (0 : Fin 1) s d) * v9 (ix3 (0 : Fin 1) d j)) + v19 (ix3 (0 : Fin 1) (0 : Fin 1) j) := by
  unfold k0_pay4
  simp only [matmul]
  rw [addf_apply, Cert.LibPlainMatmul.matmul_zero_apply dot_S1024x512_S512x64_S1024x64_1_0_0_1_n_n rfl rfl rfl rfl rfl rfl,
    Cert.LibMatrixReduce.keptRow_apply, cast_11a_a]
  simp only [truncf_apply, shapeCast_1ab_ab_apply]

/-- The same for the keys. -/
theorem pay5_apply (v3 : Vec Ideal S1x1024x512 .f32) (v12 : Vec Ideal S1x512x64 .f32) (v25 : Vec Ideal S1x1x64 .f32)
    (s : Fin 1024) (j : Fin 64) :
    k0_pay5 (F := Ideal) v3 v12 v25 (ix2 s j)
      = (∑ d : Fin 512, v3 (ix3 (0 : Fin 1) s d) * v12 (ix3 (0 : Fin 1) d j)) + v25 (ix3 (0 : Fin 1) (0 : Fin 1) j) := by
  unfold k0_pay5
  simp only [matmul]
  rw [addf_apply, Cert.LibPlainMatmul.matmul_zero_apply dot_S1024x512_S512x64_S1024x64_1_0_0_1_n_n rfl rfl rfl rfl rfl rfl,
    Cert.LibMatrixReduce.keptRow_apply, cast_11a_a]
  simp only [truncf_apply, shapeCast_1ab_ab_apply]

/-- The values' product, before its bias. -/
theorem pay6_apply (v6 : Vec Ideal S1x1024x512 .f32) (v15 : Vec Ideal S1x512x64 .f32) (s : Fin 1024) (j : Fin 64) :
    k0_pay6 (F := Ideal) v6 v15 (ix2 s j) = ∑ d : Fin 512, v6 (ix3 (0 : Fin 1) s d) * v15 (ix3 (0 : Fin 1) d j) := by
  unfold k0_pay6
  simp only [matmul]
  rw [Cert.LibPlainMatmul.matmul_zero_apply dot_S1024x512_S512x64_S1024x64_1_0_0_1_n_n rfl rfl rfl rfl rfl rfl]
  simp only [truncf_apply, shapeCast_1ab_ab_apply]

set_option backward.isDefEq.respectTransparency.types false in
/-- The softmax of a matrix's rows, as the body spells it (row maximum kept as a column, subtracted, exponentiated,
    divided by the row sum kept as a column), at `(s, t)`. -/
theorem softmax_apply (x : FVec Ideal S1024x1024 .f32) (s t : Fin 1024) :
    divf
      (exp (subf x (broadcastTo S1024x1024 (shapeCast S1024x1 (multiReduction .maximumf [1] S1024 x 0xFF800000#32 reduces_S1024x1024_S1024 (.inl rfl) rfl) shapeCasts_S1024_S1024x1) broadcasts_S1024x1_S1024x1024)))
      (broadcastTo S1024x1024 (shapeCast S1024x1 (multiReduction .add [1] S1024
        (exp (subf x (broadcastTo S1024x1024 (shapeCast S1024x1 (multiReduction .maximumf [1] S1024 x 0xFF800000#32 reduces_S1024x1024_S1024 (.inl rfl) rfl) shapeCasts_S1024_S1024x1) broadcasts_S1024x1_S1024x1024)))
        0x00000000#32 reduces_S1024x1024_S1024 (.inl rfl) rfl) shapeCasts_S1024_S1024x1) broadcasts_S1024x1_S1024x1024)
      (ix2 s t)
    = Cert.Attn.smax (fun u => x (ix2 s u)) t := by
  have hmax : ∀ u : Fin 1024,
      (broadcastTo S1024x1024 (shapeCast S1024x1 (multiReduction .maximumf [1] S1024 x 0xFF800000#32 reduces_S1024x1024_S1024 (.inl rfl) rfl) shapeCasts_S1024_S1024x1) broadcasts_S1024x1_S1024x1024) (ix2 s u)
        = Cert.Attn.rowMax (fun u => x (ix2 s u)) := fun u => by
    rw [Cert.LibMatrixReduce.keptCol_apply (by norm_num), rowMax_apply, Cert.Attn.ofBits_neg_inf]
    rfl
  have hexp : ∀ u : Fin 1024,
      (exp (subf x (broadcastTo S1024x1024 (shapeCast S1024x1 (multiReduction .maximumf [1] S1024 x 0xFF800000#32 reduces_S1024x1024_S1024 (.inl rfl) rfl) shapeCasts_S1024_S1024x1) broadcasts_S1024x1_S1024x1024))) (ix2 s u)
        = Ideal.exp (x (ix2 s u) - Cert.Attn.rowMax (fun u => x (ix2 s u))) := fun u => by
    show Ideal.exp (x (ix2 s u) - _) = _
    rw [hmax u]
  rw [divf_apply, hexp t, Cert.LibMatrixReduce.keptCol_apply (by norm_num), Cert.LibMatrixReduce.rowSum_apply]
  unfold Cert.Attn.smax
  exact congrArg (Ideal.div _) (Finset.sum_congr rfl fun u _ => hexp u)

set_option backward.isDefEq.respectTransparency.types false in
/-- The scaled scores at `(s, u)`. -/
theorem score_apply (q k : FVec Ideal S1024x64 .f32) (s u : Fin 1024) :
    (mulf (F := Ideal) (matmul dot_S1024x64_S64x1024_S1024x1024_1_0_0_1_n_n none (truncf .bf16 q bitsLt_bf16_f32)
        (transpose S64x1024 [1, 0] (truncf .bf16 k bitsLt_bf16_f32) transposes_S1024x64_p1_0_S64x1024)
        (constant S1024x1024 .f32 0x00000000#32))
      (broadcast S1024x1024 (Named.named κ "inv_1200" 0x3A5A740E#32))) (ix2 s u)
    = (∑ j : Fin 64, q (ix2 s j) * k (ix2 u j)) * ((1 / 1200 : ℝ) : EReal) := by
  simp only [matmul]
  rw [mulf_apply, broadcast_apply, inv_1200,
    Cert.LibPlainMatmul.matmul_zero_apply dot_S1024x64_S64x1024_S1024x1024_1_0_0_1_n_n rfl rfl rfl rfl rfl rfl]
  refine congrArg (· * ((1 / 1200 : ℝ) : EReal)) (Finset.sum_congr rfl fun j _ => ?_)
  rw [truncf_apply, transpose_ix2_apply, truncf_apply]

/-- The attention weights at `(s, t)`. -/
theorem pay1_apply (q k : FVec Ideal S1024x64 .f32) (s t : Fin 1024) :
    k0_pay1 (F := Ideal) q k (ix2 s t)
      = Cert.Attn.smax (fun u => (∑ j : Fin 64, q (ix2 s j) * k (ix2 u j)) * ((1 / 1200 : ℝ) : EReal)) t := by
  unfold k0_pay1
  refine (softmax_apply _ s t).trans ?_
  exact congrArg (fun r => Cert.Attn.smax r t) (funext fun u => score_apply q k s u)

/-- The first store: the attention weights as a [1, 1, 1024, 1024] block. -/
theorem pay2_apply (q k : FVec Ideal S1024x64 .f32) (s t : Fin 1024) :
    k0_pay2 (F := Ideal) q k (ix4 (0 : Fin 1) (0 : Fin 1) s t) = k0_pay1 (F := Ideal) q k (ix2 s t) := by
  unfold k0_pay2
  exact cast_ab_11ab _ _ s t

set_option backward.isDefEq.respectTransparency.types false in
/-- The second store: the attended values averaged over the queries, as a [1, 1, 1, 64] block. -/
theorem pay3_apply (q k v30 : FVec Ideal S1024x64 .f32) (v31 : Vec Ideal S1x1x64 .f32) (j : Fin 64) :
    k0_pay3 (F := Ideal) q k v30 v31 (ix4 (0 : Fin 1) (0 : Fin 1) (0 : Fin 1) j)
      = (∑ s : Fin 1024, ∑ t : Fin 1024, k0_pay1 (F := Ideal) q k (ix2 s t) * (v30 (ix2 t j) + v31 (ix3 (0 : Fin 1) (0 : Fin 1) j)))
          * ((1 / 1024 : ℝ) : EReal) := by
  unfold k0_pay3
  simp only [matmul]
  rw [cast_ab_11ab, mulf_apply, broadcast_apply, shapeCast_a_1a_apply, Cert.LibMatrixReduce.colSum_apply]
  refine congrArg₂ (· * ·) (Finset.sum_congr rfl fun s _ => ?_) Cert.Attn.ofBits_inv_1024
  rw [Cert.LibPlainMatmul.matmul_zero_apply dot_S1024x1024_S1024x64_S1024x64_1_0_0_1_n_n rfl rfl rfl rfl rfl rfl]
  refine Finset.sum_congr rfl fun t _ => ?_
  rw [truncf_apply, truncf_apply, addf_apply, Cert.LibMatrixReduce.keptRow_apply, cast_11a_a]

end Cert.KernelBody

end
-- ==== Proof.AttnFlat.lean ====
/-
  The same attention, with the 4 × 6 groups numbered as one axis of 24 (row `6b + g`) and the weights already
  split by head: activations [24, 1024, 512], per-head weights [8, 512, 64] (`W(h, d, j)`, the transposed
  matrix's column `64h + j`), per-head biases [8, 1, 64]. This is the form a kernel that walks a (24, 8) grid
  computes; when its arrays are the re-laid arguments, it is the attention of the specification.
-/
import proofs.«171958_j3298534883607_2_alg».proof.Proof.AttnSpec

noncomputable section

namespace Cert.Attn

open Idealize.ShloMosaic Idealize.ShloMosaic.ValueIdx

abbrev ActF := (⟨3, ![24, 1024, 512]⟩ : Shape).Idx → EReal
abbrev MatF := (⟨3, ![8, 512, 64]⟩ : Shape).Idx → EReal
abbrev BiasF := (⟨3, ![8, 1, 64]⟩ : Shape).Idx → EReal

/-- Group `(b, g)` as a row of 24. -/
def grp (b : Fin 4) (g : Fin 6) : Fin 24 := ⟨b.val * 6 + g.val, by omega⟩

def projF (X : ActF) (W : MatF) (β : BiasF) (r : Fin 24) (h : Fin 8) (s : Fin 1024) (j : Fin 64) : EReal :=
  (∑ d : Fin 512, X (ix3 r s d) * W (ix3 h d j)) + β (ix3 h (0 : Fin 1) j)

def probF (Xq Xk : ActF) (Wq : MatF) (βq : BiasF) (Wk : MatF) (βk : BiasF)
    (r : Fin 24) (h : Fin 8) (s t : Fin 1024) : EReal :=
  smax (fun u => (∑ j : Fin 64, projF Xq Wq βq r h s j * projF Xk Wk βk r h u j) * ((1 / 1200 : ℝ) : EReal)) t

def ctxF (Xq Xk Xv : ActF) (Wq : MatF) (βq : BiasF) (Wk : MatF) (βk : BiasF) (Wv : MatF) (βv : BiasF)
    (r : Fin 24) (h : Fin 8) (j : Fin 64) : EReal :=
  (∑ s : Fin 1024, ∑ t : Fin 1024, probF Xq Xk Wq βq Wk βk r h s t * projF Xv Wv βv r h t j)
    * ((1 / 1024 : ℝ) : EReal)

/-- An activation array [24, 1024, 512] is the re-laid [4, 6, 1024, 512] one. -/
def ActRel (X : ActF) (X' : Act) : Prop := ∀ b g s d, X (ix3 (grp b g) s d) = X' (ix4 b g s d)
/-- Per-head weights are the transposed matrix's columns, head-major. -/
def MatRel (W : MatF) (W' : Mat) : Prop := ∀ h d j, W (ix3 h d j) = W' (ix2 (col h j) d)
/-- Per-head biases are the bias vector's entries, head-major. -/
def BiasRel (β : BiasF) (β' : Bias) : Prop := ∀ h j, β (ix3 h (0 : Fin 1) j) = β' (ix1 (col h j))

theorem projF_eq {X : ActF} {X' : Act} {W : MatF} {W' : Mat} {β : BiasF} {β' : Bias}
    (hX : ActRel X X') (hW : MatRel W W') (hβ : BiasRel β β') (b : Fin 4) (g : Fin 6) (h : Fin 8) (s : Fin 1024) (j : Fin 64) :
    projF X W β (grp b g) h s j = proj X' W' β' b g h s j := by
  unfold projF proj
  rw [hβ h j]
  exact congrArg (· + β' (ix1 (col h j))) (Finset.sum_congr rfl fun d _ => by rw [hX b g s d, hW h d j])

theorem probF_eq {Xq Xk : ActF} {Xq' Xk' : Act} {Wq Wk : MatF} {Wq' Wk' : Mat} {βq βk : BiasF} {βq' βk' : Bias}
    (hq : ActRel Xq Xq') (hk : ActRel Xk Xk') (hWq : MatRel Wq Wq') (hWk : MatRel Wk Wk')
    (hβq : BiasRel βq βq') (hβk : BiasRel βk βk') (b : Fin 4) (g : Fin 6) (h : Fin 8) (s t : Fin 1024) :
    probF Xq Xk Wq βq Wk βk (grp b g) h s t = prob Xq' Xk' Wq' βq' Wk' βk' b g h s t := by
  unfold probF prob score
  refine congrArg (fun r => smax r t) (funext fun u => ?_)
  exact congrArg (· * ((1 / 1200 : ℝ) : EReal)) (Finset.sum_congr rfl fun j _ => by
    rw [projF_eq hq hWq hβq, projF_eq hk hWk hβk])

theorem ctxF_eq {Xq Xk Xv : ActF} {Xq' Xk' Xv' : Act} {Wq Wk Wv : MatF} {Wq' Wk' Wv' : Mat}
    {βq βk βv : BiasF} {βq' βk' βv' : Bias}
    (hq : ActRel Xq Xq') (hk : ActRel Xk Xk') (hv : ActRel Xv Xv') (hWq : MatRel Wq Wq') (hWk : MatRel Wk Wk')
    (hWv : MatRel Wv Wv') (hβq : BiasRel βq βq') (hβk : BiasRel βk βk') (hβv : BiasRel βv βv')
    (b : Fin 4) (g : Fin 6) (h : Fin 8) (j : Fin 64) :
    ctxF Xq Xk Xv Wq βq Wk βk Wv βv (grp b g) h j = ctx Xq' Xk' Xv' Wq' βq' Wk' βk' Wv' βv' b g h j := by
  unfold ctxF ctx
  exact congrArg (· * ((1 / 1024 : ℝ) : EReal)) (Finset.sum_congr rfl fun s _ => Finset.sum_congr rfl fun t _ => by
    rw [probF_eq hq hk hWq hWk hβq hβk, projF_eq hv hWv hβv])

end Cert.Attn

end
-- ==== Proof.KernelBlock.lean ====
/-
  One grid point's two stores as the attention of the arrays under its blocks.

  If the loaded blocks are rows of arrays — the activations' block is row `r` of [24, 1024, 512] arrays, the weights'
  and biases' blocks are head `h` of [8, 512, 64] and [8, 1, 64] arrays — then the first store is the attention
  weights of (row `r`, head `h`) and the second the averaged attended values of (row `r`, head `h`).
-/
import proofs.«171958_j3298534883607_2_alg».proof.Proof.KernelBody
import proofs.«171958_j3298534883607_2_alg».proof.Proof.AttnFlat

noncomputable section

namespace Cert.KernelBlock

open Idealize.ShloMosaic Idealize.ShloMosaic.ValueIdx Cert.KernelIdeal Cert.KernelIdeal.Gen Cert.Attn Cert.KernelBody

variable (x0 x1 x2 : Vec Ideal S1x1024x512 .f32) (x3 x4 x5 : Vec Ideal S1x512x64 .f32) (x6 x7 x8 : Vec Ideal S1x1x64 .f32)
  (Xq Xk Xv : ActF) (Wq Wk Wv : MatF) (βq βk βv : BiasF) (r : Fin 24) (h : Fin 8)

/-- A projection of the row's block by the head's slices is the flat projection. -/
theorem proj_blk (x : Vec Ideal S1x1024x512 .f32) (w : Vec Ideal S1x512x64 .f32) (β : Vec Ideal S1x1x64 .f32)
    (X : ActF) (W : MatF) (B : BiasF)
    (hx : ∀ s d, x (ix3 (0 : Fin 1) s d) = X (ix3 r s d)) (hw : ∀ d j, w (ix3 (0 : Fin 1) d j) = W (ix3 h d j))
    (hb : ∀ j, β (ix3 (0 : Fin 1) (0 : Fin 1) j) = B (ix3 h (0 : Fin 1) j)) (s : Fin 1024) (j : Fin 64) :
    (∑ d : Fin 512, x (ix3 (0 : Fin 1) s d) * w (ix3 (0 : Fin 1) d j)) + β (ix3 (0 : Fin 1) (0 : Fin 1) j)
      = projF X W B r h s j := by
  unfold projF
  rw [hb j]
  exact congrArg (· + B (ix3 h (0 : Fin 1) j)) (Finset.sum_congr rfl fun d _ => by rw [hx s d, hw d j])

/-- The attention weights of the point, at `(s, t)`. -/
theorem prob_blk
    (h0 : ∀ s d, x0 (ix3 (0 : Fin 1) s d) = Xq (ix3 r s d)) (h1 : ∀ s d, x1 (ix3 (0 : Fin 1) s d) = Xk (ix3 r s d))
    (h3 : ∀ d j, x3 (ix3 (0 : Fin 1) d j) = Wq (ix3 h d j)) (h4 : ∀ d j, x4 (ix3 (0 : Fin 1) d j) = Wk (ix3 h d j))
    (h6 : ∀ j, x6 (ix3 (0 : Fin 1) (0 : Fin 1) j) = βq (ix3 h (0 : Fin 1) j))
    (h7 : ∀ j, x7 (ix3 (0 : Fin 1) (0 : Fin 1) j) = βk (ix3 h (0 : Fin 1) j)) (s t : Fin 1024) :
    k0_pay1 (F := Ideal) (k0_pay4 x0 x3 x6) (k0_pay5 x1 x4 x7) (ix2 s t) = probF Xq Xk Wq βq Wk βk r h s t := by
  rw [pay1_apply]
  unfold probF
  refine congrArg (fun f => smax f t) (funext fun u => ?_)
  refine congrArg (· * ((1 / 1200 : ℝ) : EReal)) (Finset.sum_congr rfl fun j _ => ?_)
  rw [pay4_apply, pay5_apply, proj_blk r h x0 x3 x6 Xq Wq βq h0 h3 h6, proj_blk r h x1 x4 x7 Xk Wk βk h1 h4 h7]

/-- The first store, at `(0, 0, s, t)`. -/
theorem store_attn
    (h0 : ∀ s d, x0 (ix3 (0 : Fin 1) s d) = Xq (ix3 r s d)) (h1 : ∀ s d, x1 (ix3 (0 : Fin 1) s d) = Xk (ix3 r s d))
    (h3 : ∀ d j, x3 (ix3 (0 : Fin 1) d j) = Wq (ix3 h d j)) (h4 : ∀ d j, x4 (ix3 (0 : Fin 1) d j) = Wk (ix3 h d j))
    (h6 : ∀ j, x6 (ix3 (0 : Fin 1) (0 : Fin 1) j) = βq (ix3 h (0 : Fin 1) j))
    (h7 : ∀ j, x7 (ix3 (0 : Fin 1) (0 : Fin 1) j) = βk (ix3 h (0 : Fin 1) j)) (s t : Fin 1024) :
    k0_pay2 (F := Ideal) (k0_pay4 x0 x3 x6) (k0_pay5 x1 x4 x7) (ix4 (0 : Fin 1) (0 : Fin 1) s t)
      = probF Xq Xk Wq βq Wk βk r h s t := by
  rw [pay2_apply]
  exact prob_blk x0 x1 x3 x4 x6 x7 Xq Xk Wq Wk βq βk r h h0 h1 h3 h4 h6 h7 s t

/-- The second store, at `(0, 0, 0, j)`. -/
theorem store_ctx
    (h0 : ∀ s d, x0 (ix3 (0 : Fin 1) s d) = Xq (ix3 r s d)) (h1 : ∀ s d, x1 (ix3 (0 : Fin 1) s d) = Xk (ix3 r s d))
    (h2 : ∀ s d, x2 (ix3 (0 : Fin 1) s d) = Xv (ix3 r s d))
    (h3 : ∀ d j, x3 (ix3 (0 : Fin 1) d j) = Wq (ix3 h d j)) (h4 : ∀ d j, x4 (ix3 (0 : Fin 1) d j) = Wk (ix3 h d j))
    (h5 : ∀ d j, x5 (ix3 (0 : Fin 1) d j) = Wv (ix3 h d j))
    (h6 : ∀ j, x6 (ix3 (0 : Fin 1) (0 : Fin 1) j) = βq (ix3 h (0 : Fin 1) j))
    (h7 : ∀ j, x7 (ix3 (0 : Fin 1) (0 : Fin 1) j) = βk (ix3 h (0 : Fin 1) j))
    (h8 : ∀ j, x8 (ix3 (0 : Fin 1) (0 : Fin 1) j) = βv (ix3 h (0 : Fin 1) j)) (j : Fin 64) :
    k0_pay3 (F := Ideal) (k0_pay4 x0 x3 x6) (k0_pay5 x1 x4 x7) (k0_pay6 x2 x5) x8 (ix4 (0 : Fin 1) (0 : Fin 1) (0 : Fin 1) j)
      = ctxF Xq Xk Xv Wq βq Wk βk Wv βv r h j := by
  rw [pay3_apply]
  unfold ctxF
  refine congrArg (· * ((1 / 1024 : ℝ) : EReal)) (Finset.sum_congr rfl fun s _ => Finset.sum_congr rfl fun t _ => ?_)
  rw [prob_blk x0 x1 x3 x4 x6 x7 Xq Xk Wq Wk βq βk r h h0 h1 h3 h4 h6 h7 s t, pay6_apply,
    proj_blk r h x2 x5 x8 Xv Wv βv h2 h5 h8]

end Cert.KernelBlock

end
-- ==== Proof.KernelRegion0.lean ====
/-
  The attention kernel's region: what its two output arrays hold when it ends.

  The grid is 24 × 8; point `(r, h)` reads row `r` of the three activation arrays, head `h` of the weight and bias
  arrays, and writes block `(r, h)` of the attention-weights array [24, 8, 1024, 1024] and of the averages array
  [24, 8, 1, 64]. Every block written is the block of one function of the arrays as the region finds them — the
  attention weights, resp. the averaged attended values, of (row, head) — and the blocks cover both arrays, so each
  array ends as that function.
-/
import proofs.«171958_j3298534883607_2_alg».proof.Proof.Gen.KernelIdeal.Frame
import proofs.«171958_j3298534883607_2_alg».proof.Proof.KernelBlock
import Idealize.ShloMosaic.Lib.Pipeline.Value

set_option maxRecDepth 16384

noncomputable section

namespace Cert.KernelRegion0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Attn

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The printed index maps, decided over the grid -/

/-- An activation window's block index is (the output's row, 0, 0). -/
theorem idx_act0 : ∀ t : Fin cfg0.N, win0_0.index t (0 : Fin 3) = win0_9.index t (0 : Fin 4) ∧ win0_0.index t (1 : Fin 3) = 0 ∧ win0_0.index t (2 : Fin 3) = 0 :=
  (by decide +kernel : ∀ t : Fin grid0.N, _)
theorem idx_act1 : ∀ t : Fin cfg0.N, win0_1.index t (0 : Fin 3) = win0_9.index t (0 : Fin 4) ∧ win0_1.index t (1 : Fin 3) = 0 ∧ win0_1.index t (2 : Fin 3) = 0 :=
  (by decide +kernel : ∀ t : Fin grid0.N, _)
theorem idx_act2 : ∀ t : Fin cfg0.N, win0_2.index t (0 : Fin 3) = win0_9.index t (0 : Fin 4) ∧ win0_2.index t (1 : Fin 3) = 0 ∧ win0_2.index t (2 : Fin 3) = 0 :=
  (by decide +kernel : ∀ t : Fin grid0.N, _)
/-- A weight or bias window's block index is (the output's head, 0, 0). -/
theorem idx_mat3 : ∀ t : Fin cfg0.N, win0_3.index t (0 : Fin 3) = win0_9.index t (1 : Fin 4) ∧ win0_3.index t (1 : Fin 3) = 0 ∧ win0_3.index t (2 : Fin 3) = 0 :=
  (by decide +kernel : ∀ t : Fin grid0.N, _)
theorem idx_mat4 : ∀ t : Fin cfg0.N, win0_4.index t (0 : Fin 3) = win0_9.index t (1 : Fin 4) ∧ win0_4.index t (1 : Fin 3) = 0 ∧ win0_4.index t (2 : Fin 3) = 0 :=
  (by decide +kernel : ∀ t : Fin grid0.N, _)
theorem idx_mat5 : ∀ t : Fin cfg0.N, win0_5.index t (0 : Fin 3) = win0_9.index t (1 : Fin 4) ∧ win0_5.index t (1 : Fin 3) = 0 ∧ win0_5.index t (2 : Fin 3) = 0 :=
  (by decide +kernel : ∀ t : Fin grid0.N, _)
theorem idx_bias6 : ∀ t : Fin cfg0.N, win0_6.index t (0 : Fin 3) = win0_9.index t (1 : Fin 4) ∧ win0_6.index t (1 : Fin 3) = 0 ∧ win0_6.index t (2 : Fin 3) = 0 :=
  (by decide +kernel : ∀ t : Fin grid0.N, _)
theorem idx_bias7 : ∀ t : Fin cfg0.N, win0_7.index t (0 : Fin 3) = win0_9.index t (1 : Fin 4) ∧ win0_7.index t (1 : Fin 3) = 0 ∧ win0_7.index t (2 : Fin 3) = 0 :=
  (by decide +kernel : ∀ t : Fin grid0.N, _)
theorem idx_bias8 : ∀ t : Fin cfg0.N, win0_8.index t (0 : Fin 3) = win0_9.index t (1 : Fin 4) ∧ win0_8.index t (1 : Fin 3) = 0 ∧ win0_8.index t (2 : Fin 3) = 0 :=
  (by decide +kernel : ∀ t : Fin grid0.N, _)
/-- The outputs' block indices: (row, head, 0, 0), row below 24, head below 8, the same for both outputs. -/
theorem idx_out : ∀ t : Fin cfg0.N, win0_9.index t (0 : Fin 4) < 24 ∧ win0_9.index t (1 : Fin 4) < 8
    ∧ win0_9.index t (2 : Fin 4) = 0 ∧ win0_9.index t (3 : Fin 4) = 0
    ∧ win0_10.index t (0 : Fin 4) = win0_9.index t (0 : Fin 4) ∧ win0_10.index t (1 : Fin 4) = win0_9.index t (1 : Fin 4)
    ∧ win0_10.index t (2 : Fin 4) = 0 ∧ win0_10.index t (3 : Fin 4) = 0 :=
  (by decide +kernel : ∀ t : Fin grid0.N, _)
/-- Every (row, head) is some point's. -/
theorem idx_onto9 : ∀ (q0 : Fin 24) (q1 : Fin 8), ∃ t : Fin cfg0.N, win0_9.index t = ![q0.val, q1.val, 0, 0] :=
  (by decide +kernel : ∀ (q0 : Fin 24) (q1 : Fin 8), ∃ t : Fin grid0.N, win0_9.index t = ![q0.val, q1.val, 0, 0])
theorem idx_onto10 : ∀ (q0 : Fin 24) (q1 : Fin 8), ∃ t : Fin cfg0.N, win0_10.index t = ![q0.val, q1.val, 0, 0] :=
  (by decide +kernel : ∀ (q0 : Fin 24) (q1 : Fin 8), ∃ t : Fin grid0.N, win0_10.index t = ![q0.val, q1.val, 0, 0])

section Region
variable (V : (c : Dev nD) → (b : Ref sig .tc) → Buf (Elt Ideal) ((c : Thread nD τ).loc b))

/-- The attention weights of the arrays as the region finds them. -/
def attnOf (c : Dev nD) : S24x8x1024x1024.Idx → EReal := fun i =>
  probF (V c main_v0) (V c main_v1) (V c main_v5) (V c main_v12) (V c main_v8) (V c main_v13) (i 0) (i 1) (i 2) (i 3)

/-- The averaged attended values of the arrays as the region finds them. -/
def ctxOf (c : Dev nD) : S24x8x1x64.Idx → EReal := fun i =>
  ctxF (V c main_v0) (V c main_v1) (V c main_v2) (V c main_v5) (V c main_v12) (V c main_v8) (V c main_v13)
    (V c main_v11) (V c main_v14) (i 0) (i 1) (i 3)

/-- What point `t` writes back to the attention-weights array is block `t` of `attnOf`. -/
theorem flushed_attn (c : Dev nD) (t : Fin cfg0.N) :
    (dat0 V c).flushed 9 t = ((cfg0.win 9).blk t).view.read (Elt Ideal) (attnOf V c) := by
  show (cfg0.win 9).cut (grid0.coords t) ((dat0 V c).after 9 t) = _
  rw [after0_9]
  unfold out0_9
  rw [View.canon_unit_zero hz4]
  simp only [View.ld_unit_zero (S := S1x1024x512) hz3, View.ld_unit_zero (S := S1x512x64) hz3, View.ld_unit_zero (S := S1x1x64) hz3]
  obtain ⟨o0, o1, o2, o3, -, -, -, -⟩ := idx_out t
  let r : Fin 24 := ⟨win0_9.index t (0 : Fin 4), o0⟩
  let h : Fin 8 := ⟨win0_9.index t (1 : Fin 4), o1⟩
  have h0 : ∀ (s : Fin 1024) (d : Fin 512), iblk0 V c 0 t (ix3 (0 : Fin 1) s d) = (V c main_v0 : ActF) (ix3 r s d) := fun s d => by
    obtain ⟨e0, e1, e2⟩ := idx_act0 t
    show (V c main_v0 : ActF) (((cfg0.win 0).blk t).view.emb (ix3 (0 : Fin 1) s d)) = _
    refine congrArg (V c main_v0 : ActF) (funext fun a => Fin.ext ?_)
    match a with
    | ⟨0, _⟩ => show win0_0.index t (0 : Fin 3) * 1 + 1 * (0 : Fin 1).val = win0_9.index t (0 : Fin 4); omega
    | ⟨1, _⟩ => show win0_0.index t (1 : Fin 3) * 1024 + 1 * s.val = s.val; omega
    | ⟨2, _⟩ => show win0_0.index t (2 : Fin 3) * 512 + 1 * d.val = d.val; omega
  have h1 : ∀ (s : Fin 1024) (d : Fin 512), iblk0 V c 1 t (ix3 (0 : Fin 1) s d) = (V c main_v1 : ActF) (ix3 r s d) := fun s d => by
    obtain ⟨e0, e1, e2⟩ := idx_act1 t
    show (V c main_v1 : ActF) (((cfg0.win 1).blk t).view.emb (ix3 (0 : Fin 1) s d)) = _
    refine congrArg (V c main_v1 : ActF) (funext fun a => Fin.ext ?_)
    match a with
    | ⟨0, _⟩ => show win0_1.index t (0 : Fin 3) * 1 + 1 * (0 : Fin 1).val = win0_9.index t (0 : Fin 4); omega
    | ⟨1, _⟩ => show win0_1.index t (1 : Fin 3) * 1024 + 1 * s.val = s.val; omega
    | ⟨2, _⟩ => show win0_1.index t (2 : Fin 3) * 512 + 1 * d.val = d.val; omega
  have h3 : ∀ (d : Fin 512) (j : Fin 64), iblk0 V c 3 t (ix3 (0 : Fin 1) d j) = (V c main_v5 : MatF) (ix3 h d j) := fun d j => by
    obtain ⟨e0, e1, e2⟩ := idx_mat3 t
    show (V c main_v5 : MatF) (((cfg0.win 3).blk t).view.emb (ix3 (0 : Fin 1) d j)) = _
    refine congrArg (V c main_v5 : MatF) (funext fun a => Fin.ext ?_)
    match a with
    | ⟨0, _⟩ => show win0_3.index t (0 : Fin 3) * 1 + 1 * (0 : Fin 1).val = win0_9.index t (1 : Fin 4); omega
    | ⟨1, _⟩ => show win0_3.index t (1 : Fin 3) * 512 + 1 * d.val = d.val; omega
    | ⟨2, _⟩ => show win0_3.index t (2 : Fin 3) * 64 + 1 * j.val = j.val; omega
  have h4 : ∀ (d : Fin 512) (j : Fin 64), iblk0 V c 4 t (ix3 (0 : Fin 1) d j) = (V c main_v8 : MatF) (ix3 h d j) := fun d j => by
    obtain ⟨e0, e1, e2⟩ := idx_mat4 t
    show (V c main_v8 : MatF) (((cfg0.win 4).blk t).view.emb (ix3 (0 : Fin 1) d j)) = _
    refine congrArg (V c main_v8 : MatF) (funext fun a => Fin.ext ?_)
    match a with
    | ⟨0, _⟩ => show win0_4.index t (0 : Fin 3) * 1 + 1 * (0 : Fin 1).val = win0_9.index t (1 : Fin 4); omega
    | ⟨1, _⟩ => show win0_4.index t (1 : Fin 3) * 512 + 1 * d.val = d.val; omega
    | ⟨2, _⟩ => show win0_4.index t (2 : Fin 3) * 64 + 1 * j.val = j.val; omega
  have h6 : ∀ (j : Fin 64), iblk0 V c 6 t (ix3 (0 : Fin 1) (0 : Fin 1) j) = (V c main_v12 : BiasF) (ix3 h (0 : Fin 1) j) := fun j => by
    obtain ⟨e0, e1, e2⟩ := idx_bias6 t
    show (V c main_v12 : BiasF) (((cfg0.win 6).blk t).view.emb (ix3 (0 : Fin 1) (0 : Fin 1) j)) = _
    refine congrArg (V c main_v12 : BiasF) (funext fun a => Fin.ext ?_)
    match a with
    | ⟨0, _⟩ => show win0_6.index t (0 : Fin 3) * 1 + 1 * (0 : Fin 1).val = win0_9.index t (1 : Fin 4); omega
    | ⟨1, _⟩ => show win0_6.index t (1 : Fin 3) * 1 + 1 * (0 : Fin 1).val = (0 : Fin 1).val; omega
    | ⟨2, _⟩ => show win0_6.index t (2 : Fin 3) * 64 + 1 * j.val = j.val; omega
  have h7 : ∀ (j : Fin 64), iblk0 V c 7 t (ix3 (0 : Fin 1) (0 : Fin 1) j) = (V c main_v13 : BiasF) (ix3 h (0 : Fin 1) j) := fun j => by
    obtain ⟨e0, e1, e2⟩ := idx_bias7 t
    show (V c main_v13 : BiasF) (((cfg0.win 7).blk t).view.emb (ix3 (0 : Fin 1) (0 : Fin 1) j)) = _
    refine congrArg (V c main_v13 : BiasF) (funext fun a => Fin.ext ?_)
    match a with
    | ⟨0, _⟩ => show win0_7.index t (0 : Fin 3) * 1 + 1 * (0 : Fin 1).val = win0_9.index t (1 : Fin 4); omega
    | ⟨1, _⟩ => show win0_7.index t (1 : Fin 3) * 1 + 1 * (0 : Fin 1).val = (0 : Fin 1).val; omega
    | ⟨2, _⟩ => show win0_7.index t (2 : Fin 3) * 64 + 1 * j.val = j.val; omega
  funext y
  obtain ⟨u0, u1, s, t', rfl⟩ : ∃ (u0 u1 : Fin 1) (s t' : Fin 1024), y = ix4 u0 u1 s t' := ⟨y 0, y 1, y 2, y 3, eq_ix4 y⟩
  obtain rfl : u0 = 0 := Subsingleton.elim _ _
  obtain rfl : u1 = 0 := Subsingleton.elim _ _
  show k0_pay2 (F := Ideal) (k0_pay4 (iblk0 V c 0 t) (iblk0 V c 3 t) (iblk0 V c 6 t)) (k0_pay5 (iblk0 V c 1 t) (iblk0 V c 4 t) (iblk0 V c 7 t))
      (ix4 (0 : Fin 1) (0 : Fin 1) s t') = attnOf V c (((cfg0.win 9).blk t).view.emb (ix4 (0 : Fin 1) (0 : Fin 1) s t'))
  have hemb : ((cfg0.win 9).blk t).view.emb (ix4 (0 : Fin 1) (0 : Fin 1) s t') = ix4 r h s t' := funext fun a => Fin.ext (by
    match a with
    | ⟨0, _⟩ => show win0_9.index t (0 : Fin 4) * 1 + 1 * (0 : Fin 1).val = win0_9.index t (0 : Fin 4); omega
    | ⟨1, _⟩ => show win0_9.index t (1 : Fin 4) * 1 + 1 * (0 : Fin 1).val = win0_9.index t (1 : Fin 4); omega
    | ⟨2, _⟩ => show win0_9.index t (2 : Fin 4) * 1024 + 1 * s.val = s.val; omega
    | ⟨3, _⟩ => show win0_9.index t (3 : Fin 4) * 1024 + 1 * t'.val = t'.val; omega)
  rw [hemb]
  exact Cert.KernelBlock.store_attn (iblk0 V c 0 t) (iblk0 V c 1 t) (iblk0 V c 3 t) (iblk0 V c 4 t) (iblk0 V c 6 t) (iblk0 V c 7 t)
    (V c main_v0) (V c main_v1) (V c main_v5) (V c main_v8) (V c main_v12) (V c main_v13) r h h0 h1 h3 h4 h6 h7 s t'

/-- An index of the attention-weights array is in point `t`'s block iff each coordinate is in the block's range. -/
theorem mem_blk9 (t : Fin cfg0.N) (i : S24x8x1024x1024.Idx) :
    i ∈ ((cfg0.win 9).blk t).view.set ↔ ∀ a : Fin 4, win0_9.index t a * S1x1x1024x1024.size a ≤ (i a).val ∧ (i a).val < win0_9.index t a * S1x1x1024x1024.size a + S1x1x1024x1024.size a := by
  show i ∈ ((View.whole main_v15_0).slice (win0_9.rect t)).set ↔ _
  rw [View.set_slice_whole, Rect.mem_set_unit]
  exact Iff.rfl

/-- Every index of the attention-weights array is in some point's block. -/
theorem cover9 (i : S24x8x1024x1024.Idx) :
    ∃ t : Fin cfg0.N, (cfg0.win 9).flush t = true ∧ i ∈ ((cfg0.win 9).blk t).view.set := by
  have hi0 : (i 0).val < 24 := (i 0).isLt
  have hi1 : (i 1).val < 8 := (i 1).isLt
  have hi2 : (i 2).val < 1024 := (i 2).isLt
  have hi3 : (i 3).val < 1024 := (i 3).isLt
  obtain ⟨t, ht⟩ := idx_onto9 ⟨(i 0).val, hi0⟩ ⟨(i 1).val, hi1⟩
  have q0 : win0_9.index t (0 : Fin 4) = (i 0).val := congrFun ht 0
  have q1 : win0_9.index t (1 : Fin 4) = (i 1).val := congrFun ht 1
  have q2 : win0_9.index t (2 : Fin 4) = 0 := congrFun ht 2
  have q3 : win0_9.index t (3 : Fin 4) = 0 := congrFun ht 3
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 1 ≤ (i 1).val ∧ (i 1).val < win0_9.index t (1 : Fin 4) * 1 + 1; omega
  | ⟨2, _⟩ => show win0_9.index t (2 : Fin 4) * 1024 ≤ (i 2).val ∧ (i 2).val < win0_9.index t (2 : Fin 4) * 1024 + 1024; omega
  | ⟨3, _⟩ => show win0_9.index t (3 : Fin 4) * 1024 ≤ (i 3).val ∧ (i 3).val < win0_9.index t (3 : Fin 4) * 1024 + 1024; omega

/-- The attention-weights array after the region. -/
theorem final_attn (c : Dev nD) : (dat0 V c).arrAt 9 cfg0.N = attnOf V c :=
  (dat0 V c).arrAt_eq_of_cover 9 (attnOf V c) (fun t _ => flushed_attn V c t) cover9

/-- What point `t` writes back to the averages array is block `t` of `ctxOf`. -/
theorem flushed_ctx (c : Dev nD) (t : Fin cfg0.N) :
    (dat0 V c).flushed 10 t = ((cfg0.win 10).blk t).view.read (Elt Ideal) (ctxOf V c) := by
  show (cfg0.win 10).cut (grid0.coords t) ((dat0 V c).after 10 t) = _
  rw [after0_10]
  unfold out0_10
  rw [View.canon_unit_zero hz4]
  simp only [View.ld_unit_zero (S := S1x1024x512) hz3, View.ld_unit_zero (S := S1x512x64) hz3, View.ld_unit_zero (S := S1x1x64) hz3]
  obtain ⟨o0, o1, o2, o3, p0, p1, p2, p3⟩ := idx_out t
  let r : Fin 24 := ⟨win0_9.index t (0 : Fin 4), o0⟩
  let h : Fin 8 := ⟨win0_9.index t (1 : Fin 4), o1⟩
  have h0 : ∀ (s : Fin 1024) (d : Fin 512), iblk0 V c 0 t (ix3 (0 : Fin 1) s d) = (V c main_v0 : ActF) (ix3 r s d) := fun s d => by
    obtain ⟨e0, e1, e2⟩ := idx_act0 t
    show (V c main_v0 : ActF) (((cfg0.win 0).blk t).view.emb (ix3 (0 : Fin 1) s d)) = _
    refine congrArg (V c main_v0 : ActF) (funext fun a => Fin.ext ?_)
    match a with
    | ⟨0, _⟩ => show win0_0.index t (0 : Fin 3) * 1 + 1 * (0 : Fin 1).val = win0_9.index t (0 : Fin 4); omega
    | ⟨1, _⟩ => show win0_0.index t (1 : Fin 3) * 1024 + 1 * s.val = s.val; omega
    | ⟨2, _⟩ => show win0_0.index t (2 : Fin 3) * 512 + 1 * d.val = d.val; omega
  have h1 : ∀ (s : Fin 1024) (d : Fin 512), iblk0 V c 1 t (ix3 (0 : Fin 1) s d) = (V c main_v1 : ActF) (ix3 r s d) := fun s d => by
    obtain ⟨e0, e1, e2⟩ := idx_act1 t
    show (V c main_v1 : ActF) (((cfg0.win 1).blk t).view.emb (ix3 (0 : Fin 1) s d)) = _
    refine congrArg (V c main_v1 : ActF) (funext fun a => Fin.ext ?_)
    match a with
    | ⟨0, _⟩ => show win0_1.index t (0 : Fin 3) * 1 + 1 * (0 : Fin 1).val = win0_9.index t (0 : Fin 4); omega
    | ⟨1, _⟩ => show win0_1.index t (1 : Fin 3) * 1024 + 1 * s.val = s.val; omega
    | ⟨2, _⟩ => show win0_1.index t (2 : Fin 3) * 512 + 1 * d.val = d.val; omega
  have h2 : ∀ (s : Fin 1024) (d : Fin 512), iblk0 V c 2 t (ix3 (0 : Fin 1) s d) = (V c main_v2 : ActF) (ix3 r s d) := fun s d => by
    obtain ⟨e0, e1, e2⟩ := idx_act2 t
    show (V c main_v2 : ActF) (((cfg0.win 2).blk t).view.emb (ix3 (0 : Fin 1) s d)) = _
    refine congrArg (V c main_v2 : ActF) (funext fun a => Fin.ext ?_)
    match a with
    | ⟨0, _⟩ => show win0_2.index t (0 : Fin 3) * 1 + 1 * (0 : Fin 1).val = win0_9.index t (0 : Fin 4); omega
    | ⟨1, _⟩ => show win0_2.index t (1 : Fin 3) * 1024 + 1 * s.val = s.val; omega
    | ⟨2, _⟩ => show win0_2.index t (2 : Fin 3) * 512 + 1 * d.val = d.val; omega
  have h3 : ∀ (d : Fin 512) (j : Fin 64), iblk0 V c 3 t (ix3 (0 : Fin 1) d j) = (V c main_v5 : MatF) (ix3 h d j) := fun d j => by
    obtain ⟨e0, e1, e2⟩ := idx_mat3 t
    show (V c main_v5 : MatF) (((cfg0.win 3).blk t).view.emb (ix3 (0 : Fin 1) d j)) = _
    refine congrArg (V c main_v5 : MatF) (funext fun a => Fin.ext ?_)
    match a with
    | ⟨0, _⟩ => show win0_3.index t (0 : Fin 3) * 1 + 1 * (0 : Fin 1).val = win0_9.index t (1 : Fin 4); omega
    | ⟨1, _⟩ => show win0_3.index t (1 : Fin 3) * 512 + 1 * d.val = d.val; omega
    | ⟨2, _⟩ => show win0_3.index t (2 : Fin 3) * 64 + 1 * j.val = j.val; omega
  have h4 : ∀ (d : Fin 512) (j : Fin 64), iblk0 V c 4 t (ix3 (0 : Fin 1) d j) = (V c main_v8 : MatF) (ix3 h d j) := fun d j => by
    obtain ⟨e0, e1, e2⟩ := idx_mat4 t
    show (V c main_v8 : MatF) (((cfg0.win 4).blk t).view.emb (ix3 (0 : Fin 1) d j)) = _
    refine congrArg (V c main_v8 : MatF) (funext fun a => Fin.ext ?_)
    match a with
    | ⟨0, _⟩ => show win0_4.index t (0 : Fin 3) * 1 + 1 * (0 : Fin 1).val = win0_9.index t (1 : Fin 4); omega
    | ⟨1, _⟩ => show win0_4.index t (1 : Fin 3) * 512 + 1 * d.val = d.val; omega
    | ⟨2, _⟩ => show win0_4.index t (2 : Fin 3) * 64 + 1 * j.val = j.val; omega
  have h5 : ∀ (d : Fin 512) (j : Fin 64), iblk0 V c 5 t (ix3 (0 : Fin 1) d j) = (V c main_v11 : MatF) (ix3 h d j) := fun d j => by
    obtain ⟨e0, e1, e2⟩ := idx_mat5 t
    show (V c main_v11 : MatF) (((cfg0.win 5).blk t).view.emb (ix3 (0 : Fin 1) d j)) = _
    refine congrArg (V c main_v11 : MatF) (funext fun a => Fin.ext ?_)
    match a with
    | ⟨0, _⟩ => show win0_5.index t (0 : Fin 3) * 1 + 1 * (0 : Fin 1).val = win0_9.index t (1 : Fin 4); omega
    | ⟨1, _⟩ => show win0_5.index t (1 : Fin 3) * 512 + 1 * d.val = d.val; omega
    | ⟨2, _⟩ => show win0_5.index t (2 : Fin 3) * 64 + 1 * j.val = j.val; omega
  have h6 : ∀ (j : Fin 64), iblk0 V c 6 t (ix3 (0 : Fin 1) (0 : Fin 1) j) = (V c main_v12 : BiasF) (ix3 h (0 : Fin 1) j) := fun j => by
    obtain ⟨e0, e1, e2⟩ := idx_bias6 t
    show (V c main_v12 : BiasF) (((cfg0.win 6).blk t).view.emb (ix3 (0 : Fin 1) (0 : Fin 1) j)) = _
    refine congrArg (V c main_v12 : BiasF) (funext fun a => Fin.ext ?_)
    match a with
    | ⟨0, _⟩ => show win0_6.index t (0 : Fin 3) * 1 + 1 * (0 : Fin 1).val = win0_9.index t (1 : Fin 4); omega
    | ⟨1, _⟩ => show win0_6.index t (1 : Fin 3) * 1 + 1 * (0 : Fin 1).val = (0 : Fin 1).val; omega
    | ⟨2, _⟩ => show win0_6.index t (2 : Fin 3) * 64 + 1 * j.val = j.val; omega
  have h7 : ∀ (j : Fin 64), iblk0 V c 7 t (ix3 (0 : Fin 1) (0 : Fin 1) j) = (V c main_v13 : BiasF) (ix3 h (0 : Fin 1) j) := fun j => by
    obtain ⟨e0, e1, e2⟩ := idx_bias7 t
    show (V c main_v13 : BiasF) (((cfg0.win 7).blk t).view.emb (ix3 (0 : Fin 1) (0 : Fin 1) j)) = _
    refine congrArg (V c main_v13 : BiasF) (funext fun a => Fin.ext ?_)
    match a with
    | ⟨0, _⟩ => show win0_7.index t (0 : Fin 3) * 1 + 1 * (0 : Fin 1).val = win0_9.index t (1 : Fin 4); omega
    | ⟨1, _⟩ => show win0_7.index t (1 : Fin 3) * 1 + 1 * (0 : Fin 1).val = (0 : Fin 1).val; omega
    | ⟨2, _⟩ => show win0_7.index t (2 : Fin 3) * 64 + 1 * j.val = j.val; omega
  have h8 : ∀ (j : Fin 64), iblk0 V c 8 t (ix3 (0 : Fin 1) (0 : Fin 1) j) = (V c main_v14 : BiasF) (ix3 h (0 : Fin 1) j) := fun j => by
    obtain ⟨e0, e1, e2⟩ := idx_bias8 t
    show (V c main_v14 : BiasF) (((cfg0.win 8).blk t).view.emb (ix3 (0 : Fin 1) (0 : Fin 1) j)) = _
    refine congrArg (V c main_v14 : BiasF) (funext fun a => Fin.ext ?_)
    match a with
    | ⟨0, _⟩ => show win0_8.index t (0 : Fin 3) * 1 + 1 * (0 : Fin 1).val = win0_9.index t (1 : Fin 4); omega
    | ⟨1, _⟩ => show win0_8.index t (1 : Fin 3) * 1 + 1 * (0 : Fin 1).val = (0 : Fin 1).val; omega
    | ⟨2, _⟩ => show win0_8.index t (2 : Fin 3) * 64 + 1 * j.val = j.val; omega
  funext y
  obtain ⟨u0, u1, u2, j, rfl⟩ : ∃ (u0 u1 u2 : Fin 1) (j : Fin 64), y = ix4 u0 u1 u2 j := ⟨y 0, y 1, y 2, y 3, eq_ix4 y⟩
  obtain rfl : u0 = 0 := Subsingleton.elim _ _
  obtain rfl : u1 = 0 := Subsingleton.elim _ _
  obtain rfl : u2 = 0 := Subsingleton.elim _ _
  show k0_pay3 (F := Ideal) (k0_pay4 (iblk0 V c 0 t) (iblk0 V c 3 t) (iblk0 V c 6 t)) (k0_pay5 (iblk0 V c 1 t) (iblk0 V c 4 t) (iblk0 V c 7 t))
      (k0_pay6 (iblk0 V c 2 t) (iblk0 V c 5 t)) (iblk0 V c 8 t)
      (ix4 (0 : Fin 1) (0 : Fin 1) (0 : Fin 1) j) = ctxOf V c (((cfg0.win 10).blk t).view.emb (ix4 (0 : Fin 1) (0 : Fin 1) (0 : Fin 1) j))
  have hemb : ((cfg0.win 10).blk t).view.emb (ix4 (0 : Fin 1) (0 : Fin 1) (0 : Fin 1) j) = ix4 r h (0 : Fin 1) j := funext fun a => Fin.ext (by
    match a with
    | ⟨0, _⟩ => show win0_10.index t (0 : Fin 4) * 1 + 1 * (0 : Fin 1).val = win0_9.index t (0 : Fin 4); omega
    | ⟨1, _⟩ => show win0_10.index t (1 : Fin 4) * 1 + 1 * (0 : Fin 1).val = win0_9.index t (1 : Fin 4); omega
    | ⟨2, _⟩ => show win0_10.index t (2 : Fin 4) * 1 + 1 * (0 : Fin 1).val = (0 : Fin 1).val; omega
    | ⟨3, _⟩ => show win0_10.index t (3 : Fin 4) * 64 + 1 * j.val = j.val; omega)
  rw [hemb]
  exact Cert.KernelBlock.store_ctx (iblk0 V c 0 t) (iblk0 V c 1 t) (iblk0 V c 2 t) (iblk0 V c 3 t) (iblk0 V c 4 t) (iblk0 V c 5 t)
    (iblk0 V c 6 t) (iblk0 V c 7 t) (iblk0 V c 8 t)
    (V c main_v0) (V c main_v1) (V c main_v2) (V c main_v5) (V c main_v8) (V c main_v11) (V c main_v12) (V c main_v13) (V c main_v14)
    r h h0 h1 h2 h3 h4 h5 h6 h7 h8 j

/-- An index of the averages array is in point `t`'s block iff each coordinate is in the block's range. -/
theorem mem_blk10 (t : Fin cfg0.N) (i : S24x8x1x64.Idx) :
    i ∈ ((cfg0.win 10).blk t).view.set ↔ ∀ a : Fin 4, win0_10.index t a * S1x1x1x64.size a ≤ (i a).val ∧ (i a).val < win0_10.index t a * S1x1x1x64.size a + S1x1x1x64.size a := by
  show i ∈ ((View.whole main_v15_1).slice (win0_10.rect t)).set ↔ _
  rw [View.set_slice_whole, Rect.mem_set_unit]
  exact Iff.rfl

/-- Every index of the averages array is in some point's block. -/
theorem cover10 (i : S24x8x1x64.Idx) :
    ∃ t : Fin cfg0.N, (cfg0.win 10).flush t = true ∧ i ∈ ((cfg0.win 10).blk t).view.set := by
  have hi0 : (i 0).val < 24 := (i 0).isLt
  have hi1 : (i 1).val < 8 := (i 1).isLt
  have hi2 : (i 2).val < 1 := (i 2).isLt
  have hi3 : (i 3).val < 64 := (i 3).isLt
  obtain ⟨t, ht⟩ := idx_onto10 ⟨(i 0).val, hi0⟩ ⟨(i 1).val, hi1⟩
  have q0 : win0_10.index t (0 : Fin 4) = (i 0).val := congrFun ht 0
  have q1 : win0_10.index t (1 : Fin 4) = (i 1).val := congrFun ht 1
  have q2 : win0_10.index t (2 : Fin 4) = 0 := congrFun ht 2
  have q3 : win0_10.index t (3 : Fin 4) = 0 := congrFun ht 3
  refine ⟨t, flush0_10 t, ?_⟩
  rw [mem_blk10]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 1 ≤ (i 1).val ∧ (i 1).val < win0_10.index t (1 : Fin 4) * 1 + 1; omega
  | ⟨2, _⟩ => show win0_10.index t (2 : Fin 4) * 1 ≤ (i 2).val ∧ (i 2).val < win0_10.index t (2 : Fin 4) * 1 + 1; omega
  | ⟨3, _⟩ => show win0_10.index t (3 : Fin 4) * 64 ≤ (i 3).val ∧ (i 3).val < win0_10.index t (3 : Fin 4) * 64 + 64; omega

/-- The averages array after the region. -/
theorem final_ctx (c : Dev nD) : (dat0 V c).arrAt 10 cfg0.N = ctxOf V c :=
  (dat0 V c).arrAt_eq_of_cover 10 (ctxOf V c) (fun t _ => flushed_ctx V c t) cover10

end Region

end Cert.KernelRegion0

end
-- ==== Proof.KernelEntry.lean ====
/-
  The arrays the attention kernel's region finds, as re-layouts of the arguments.

  Before the region the host recasts each activation array [4, 6, 1024, 512] as [24, 1024, 512] (row `6b + g`),
  transposes each weight matrix, splits its columns by head ([512, 8, 64]) and brings the head in front
  ([8, 512, 64]): entry `(h, d, j)` is the matrix's entry `(64h + j, d)`; each bias [512] is recast [8, 1, 64].
-/
import proofs.«171958_j3298534883607_2_alg».proof.Proof.Gen.KernelIdeal.Frame
import proofs.«171958_j3298534883607_2_alg».proof.Proof.AttnFlat
import Idealize.ShloMosaic.Lib.StableHlo.Run
import Idealize.ShloMosaic.Lib.Pipeline.Value
import Idealize.ShloMosaic.Lib.ValueLayout

noncomputable section

namespace Cert.KernelEntry

open Idealize.ShloMosaic Idealize.ShloMosaic.TcCoe Idealize.ShloMosaic.ValueIdx Idealize.SL.Sem Idealize.ShloMosaic.StableHlo
open Cert.KernelIdeal Cert.KernelIdeal.Gen Cert.Attn

/-! ## The three layouts at coordinates -/

section Layout
variable {α : Type}

/-- [4, 6, 1024, 512] recast as [24, 1024, 512]: row `6b + g` is group `(b, g)`. -/
theorem act_cast (X : (⟨4, ![4, 6, 1024, 512]⟩ : Shape).Idx → α)
    (hc : (⟨4, ![4, 6, 1024, 512]⟩ : Shape).ShapeCasts ⟨3, ![24, 1024, 512]⟩) (b : Fin 4) (g : Fin 6) (s : Fin 1024) (d : Fin 512) :
    shapeCast ⟨3, ![24, 1024, 512]⟩ X hc (ix3 (grp b g) s d) = X (ix4 b g s d) :=
  shapeCast_apply X hc _ _ (by
    rw [Shape.rowMajor_val_four, Shape.rowMajor_val_three]
    show ((b.val * 6 + g.val) * 1024 + s.val) * 512 + d.val = ((b.val * 6 + g.val) * 1024 + s.val) * 512 + d.val
    rfl)

/-- A [512, 512] matrix transposed, its columns split by head, the head brought in front: `(h, d, j) ↦ (64h + j, d)`. -/
theorem head_split (W : (⟨2, ![512, 512]⟩ : Shape).Idx → α)
    (ht : (⟨2, ![512, 512]⟩ : Shape).Transposes [1, 0] ⟨2, ![512, 512]⟩)
    (hc : (⟨2, ![512, 512]⟩ : Shape).ShapeCasts ⟨3, ![512, 8, 64]⟩)
    (hp : (⟨3, ![512, 8, 64]⟩ : Shape).Transposes [1, 0, 2] ⟨3, ![8, 512, 64]⟩) (h : Fin 8) (d : Fin 512) (j : Fin 64) :
    transpose ⟨3, ![8, 512, 64]⟩ [1, 0, 2] (shapeCast ⟨3, ![512, 8, 64]⟩ (transpose ⟨2, ![512, 512]⟩ [1, 0] W ht) hc) hp (ix3 h d j)
      = W (ix2 (col h j) d) := by
  refine (transpose_apply _ _ hp (ix3 h d j) (ix3 d h j) fun c => match c with
    | ⟨0, _⟩ => rfl | ⟨1, _⟩ => rfl | ⟨2, _⟩ => rfl).trans ?_
  refine (shapeCast_apply _ hc (ix3 d h j) (ix2 d (col h j)) (by
    rw [Shape.rowMajor_val_two, Shape.rowMajor_val_three]
    show d.val * 512 + (h.val * 64 + j.val) = (d.val * 8 + h.val) * 64 + j.val
    omega)).trans ?_
  exact transpose_ix2_apply W ht d (col h j)

/-- A bias [512] recast as [8, 1, 64]: `(h, 0, j) ↦ 64h + j`. -/
theorem bias_cast (β : (⟨1, ![512]⟩ : Shape).Idx → α) (hc : (⟨1, ![512]⟩ : Shape).ShapeCasts ⟨3, ![8, 1, 64]⟩)
    (h : Fin 8) (j : Fin 64) : shapeCast ⟨3, ![8, 1, 64]⟩ β hc (ix3 h (0 : Fin 1) j) = β (ix1 (col h j)) :=
  shapeCast_apply β hc _ _ (by
    rw [Shape.rowMajor_val_one, Shape.rowMajor_val_three]
    show h.val * 64 + j.val = (h.val * 1 + 0) * 64 + j.val
    omega)

end Layout

/-! ## The region's arrays -/

variable (m : (ℓ : Loc nD τ sig) → Buf (Elt Ideal) ℓ) (ρ : Dev nD → PrngReg) (c : Dev nD)

theorem act_q : ActRel (V1 m ρ c main_v0 : S24x1024x512.Idx → EReal) (m ((c : Thread nD τ).loc main_arg0)) := fun b g s d => by
  have e : (V1 m ρ c main_v0 : S24x1024x512.Idx → EReal)
      = shapeCast S24x1024x512 (m ((c : Thread nD τ).loc main_arg0) : S4x6x1024x512.Idx → EReal) shapeCasts_S4x6x1024x512_S24x1024x512 := by
    show StableHlo.after hostOps0 (W0 m ρ c) (Proc.devRef .tc main_v0) = _
    after_results; rfl
  rw [e]; exact act_cast _ _ b g s d

theorem act_k : ActRel (V1 m ρ c main_v1 : S24x1024x512.Idx → EReal) (m ((c : Thread nD τ).loc main_arg1)) := fun b g s d => by
  have e : (V1 m ρ c main_v1 : S24x1024x512.Idx → EReal)
      = shapeCast S24x1024x512 (m ((c : Thread nD τ).loc main_arg1) : S4x6x1024x512.Idx → EReal) shapeCasts_S4x6x1024x512_S24x1024x512 := by
    show StableHlo.after hostOps0 (W0 m ρ c) (Proc.devRef .tc main_v1) = _
    after_results; rfl
  rw [e]; exact act_cast _ _ b g s d

theorem act_v : ActRel (V1 m ρ c main_v2 : S24x1024x512.Idx → EReal) (m ((c : Thread nD τ).loc main_arg2)) := fun b g s d => by
  have e : (V1 m ρ c main_v2 : S24x1024x512.Idx → EReal)
      = shapeCast S24x1024x512 (m ((c : Thread nD τ).loc main_arg2) : S4x6x1024x512.Idx → EReal) shapeCasts_S4x6x1024x512_S24x1024x512 := by
    show StableHlo.after hostOps0 (W0 m ρ c) (Proc.devRef .tc main_v2) = _
    after_results; rfl
  rw [e]; exact act_cast _ _ b g s d

theorem mat_q : MatRel (V1 m ρ c main_v5 : S8x512x64.Idx → EReal) (m ((c : Thread nD τ).loc main_arg3)) := fun h d j => by
  have e : (V1 m ρ c main_v5 : S8x512x64.Idx → EReal)
      = transpose S8x512x64 [1, 0, 2] (shapeCast S512x8x64 (transpose S512x512 [1, 0]
          (m ((c : Thread nD τ).loc main_arg3) : S512x512.Idx → EReal) transposes_S512x512_S512x512_1_0) shapeCasts_S512x512_S512x8x64)
          transposes_S512x8x64_S8x512x64_1_0_2 := by
    show StableHlo.after hostOps0 (W0 m ρ c) (Proc.devRef .tc main_v5) = _
    after_results; rfl
  rw [e]; exact head_split _ _ _ _ h d j

theorem mat_k : MatRel (V1 m ρ c main_v8 : S8x512x64.Idx → EReal) (m ((c : Thread nD τ).loc main_arg5)) := fun h d j => by
  have e : (V1 m ρ c main_v8 : S8x512x64.Idx → EReal)
      = transpose S8x512x64 [1, 0, 2] (shapeCast S512x8x64 (transpose S512x512 [1, 0]
          (m ((c : Thread nD τ).loc main_arg5) : S512x512.Idx → EReal) transposes_S512x512_S512x512_1_0) shapeCasts_S512x512_S512x8x64)
          transposes_S512x8x64_S8x512x64_1_0_2 := by
    show StableHlo.after hostOps0 (W0 m ρ c) (Proc.devRef .tc main_v8) = _
    after_results; rfl
  rw [e]; exact head_split _ _ _ _ h d j

theorem mat_v : MatRel (V1 m ρ c main_v11 : S8x512x64.Idx → EReal) (m ((c : Thread nD τ).loc main_arg7)) := fun h d j => by
  have e : (V1 m ρ c main_v11 : S8x512x64.Idx → EReal)
      = transpose S8x512x64 [1, 0, 2] (shapeCast S512x8x64 (transpose S512x512 [1, 0]
          (m ((c : Thread nD τ).loc main_arg7) : S512x512.Idx → EReal) transposes_S512x512_S512x512_1_0) shapeCasts_S512x512_S512x8x64)
          transposes_S512x8x64_S8x512x64_1_0_2 := by
    show StableHlo.after hostOps0 (W0 m ρ c) (Proc.devRef .tc main_v11) = _
    after_results; rfl
  rw [e]; exact head_split _ _ _ _ h d j

theorem bias_q : BiasRel (V1 m ρ c main_v12 : S8x1x64.Idx → EReal) (m ((c : Thread nD τ).loc main_arg4)) := fun h j => by
  have e : (V1 m ρ c main_v12 : S8x1x64.Idx → EReal)
      = shapeCast S8x1x64 (m ((c : Thread nD τ).loc main_arg4) : S512.Idx → EReal) shapeCasts_S512_S8x1x64 := by
    show StableHlo.after hostOps0 (W0 m ρ c) (Proc.devRef .tc main_v12) = _
    after_results; rfl
  rw [e]; exact bias_cast _ _ h j

theorem bias_k : BiasRel (V1 m ρ c main_v13 : S8x1x64.Idx → EReal) (m ((c : Thread nD τ).loc main_arg6)) := fun h j => by
  have e : (V1 m ρ c main_v13 : S8x1x64.Idx → EReal)
      = shapeCast S8x1x64 (m ((c : Thread nD τ).loc main_arg6) : S512.Idx → EReal) shapeCasts_S512_S8x1x64 := by
    show StableHlo.after hostOps0 (W0 m ρ c) (Proc.devRef .tc main_v13) = _
    after_results; rfl
  rw [e]; exact bias_cast _ _ h j

theorem bias_v : BiasRel (V1 m ρ c main_v14 : S8x1x64.Idx → EReal) (m ((c : Thread nD τ).loc main_arg8)) := fun h j => by
  have e : (V1 m ρ c main_v14 : S8x1x64.Idx → EReal)
      = shapeCast S8x1x64 (m ((c : Thread nD τ).loc main_arg8) : S512.Idx → EReal) shapeCasts_S512_S8x1x64 := by
    show StableHlo.after hostOps0 (W0 m ρ c) (Proc.devRef .tc main_v14) = _
    after_results; rfl
  rw [e]; exact bias_cast _ _ h j

end Cert.KernelEntry

end
-- ==== Proof.KernelTail.lean ====
/-
  What the program computes after its first kernel region, entry by entry over the extended reals.

  The second region is a linear layer on one grid point: its output array is, at (r, e), the sum over k of
  x (r, k) · w (k, e) plus the bias at e, where x, w and the bias are the three input arrays as the region finds
  them. The host operations between the regions lay the first region's second output out lane-major
  (column d = 8 · lane + head) and transpose the weight matrix; the host operations after re-index the rows
  [24] as [4, 6].
-/
import proofs.«171958_j3298534883607_2_alg».proof.Proof.Gen.KernelIdeal.Frame
import proofs.«171958_j3298534883607_2_alg».proof.Proof.AttnSpec
import proofs.«171958_j3298534883607_2_alg».proof.Proof.LibPlainMatmul
import proofs.«171958_j3298534883607_2_alg».proof.Proof.LibMatrixReduce
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelTail

open Idealize.ShloMosaic Idealize.ShloMosaic.ValueIdx Idealize.SL.Sem Cert.KernelIdeal Cert.KernelIdeal.Gen
open Idealize.ShloMosaic.TcCoe
open Idealize.ShloMosaic.Pipeline (Dat)

/-! ## The linear layer's payload at an entry -/

/-- The linear layer as one function of its three arrays: at (r, e), Σ_k x (r, k) · w (k, e) + bias e. -/
def lin (x : S24x512.Idx → EReal) (w : S512x512.Idx → EReal) (β : S512.Idx → EReal) : S24x512.Idx → EReal :=
  fun i => (∑ k : Fin 512, x (ix2 (i 0) k) * w (ix2 k (i 1))) + β (ix1 (i 1))

theorem lin_apply (x : S24x512.Idx → EReal) (w : S512x512.Idx → EReal) (β : S512.Idx → EReal) (r : Fin 24) (e : Fin 512) :
    lin x w β (ix2 r e) = (∑ k : Fin 512, x (ix2 r k) * w (ix2 k e)) + β (ix1 e) := rfl

/-- The body's stored value at (r, e): the product of the two loaded blocks into zero, plus the bias row. -/
theorem pay_apply (x0 : Vec Ideal S24x512 .f32) (x1 : Vec Ideal S512x512 .f32) (x2 : Vec Ideal S512 .f32)
    (r : Fin 24) (e : Fin 512) :
    k1_pay1 (F := Ideal) x0 x1 x2 (ix2 r e) = (∑ k : Fin 512, x0 (ix2 r k) * x1 (ix2 k e)) + x2 (ix1 e) := by
  unfold k1_pay1
  refine congrArg₂ (· + ·) ?_ ?_
  · refine (Cert.LibPlainMatmul.matmul_zero_apply dot_S24x512_S512x512_S24x512_1_0_0_1_n_n rfl rfl rfl rfl rfl rfl none _ _ r e).trans ?_
    refine Finset.sum_congr rfl fun k _ => ?_
    simp only [truncf_apply, shapeCast_self]
  · exact Cert.LibMatrixReduce.keptRow_apply x2 _ _ r e

/-! ## From the one block to the array -/

theorem hz2 : (![0, 0] : Fin 2 → Nat) = fun _ => 0 := funext fun a => by fin_cases a <;> rfl
theorem hz1 : (![0] : Fin 1 → Nat) = fun _ => 0 := funext fun a => by fin_cases a; rfl

/-- The grid has one point, and at it every window's block index is zero on every axis. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

section Region
variable (V : (c : Dev nD) → (b : Ref sig .tc) → Buf (Elt Ideal) ((c : Thread nD τ).loc b))

/-- The first input's block is the whole array: entry (r, k) of the block is entry (r, k) of the array. -/
theorem blk0_apply (c : Dev nD) (t : Fin cfg1.N) (r : Fin 24) (k : Fin 512) :
    (iblk1 V c 0 t : S24x512.Idx → EReal) (ix2 r k) = (V c main_v20 : S24x512.Idx → EReal) (ix2 r k) := by
  obtain ⟨e0, e1, -⟩ := idx_facts t
  unfold iblk1
  rw [View.read_apply]
  show V c main_v20 (((cfg1.win 0).blk t).view.emb (ix2 r k)) = V c main_v20 (ix2 r k)
  refine congrArg (V c main_v20) (funext fun a => Fin.ext ?_)
  match a with
  | ⟨0, _⟩ => show win1_0.index t (0 : Fin 2) * 24 + 1 * r.val = r.val; rw [e0]; omega
  | ⟨1, _⟩ => show win1_0.index t (1 : Fin 2) * 512 + 1 * k.val = k.val; rw [e1]; omega

/-- The second input's block is the whole array. -/
theorem blk1_apply (c : Dev nD) (t : Fin cfg1.N) (k : Fin 512) (e : Fin 512) :
    (iblk1 V c 1 t : S512x512.Idx → EReal) (ix2 k e) = (V c main_v21 : S512x512.Idx → EReal) (ix2 k e) := by
  obtain ⟨-, -, e0, e1, -⟩ := idx_facts t
  unfold iblk1
  rw [View.read_apply]
  show V c main_v21 (((cfg1.win 1).blk t).view.emb (ix2 k e)) = V c main_v21 (ix2 k e)
  refine congrArg (V c main_v21) (funext fun a => Fin.ext ?_)
  match a with
  | ⟨0, _⟩ => show win1_1.index t (0 : Fin 2) * 512 + 1 * k.val = k.val; rw [e0]; omega
  | ⟨1, _⟩ => show win1_1.index t (1 : Fin 2) * 512 + 1 * e.val = e.val; rw [e1]; omega

/-- The third input's block is the whole bias vector. -/
theorem blk2_apply (c : Dev nD) (t : Fin cfg1.N) (e : Fin 512) :
    (iblk1 V c 2 t : S512.Idx → EReal) (ix1 e) = (V c main_arg10 : S512.Idx → EReal) (ix1 e) := by
  obtain ⟨-, -, -, -, e0, -⟩ := idx_facts t
  unfold iblk1
  rw [View.read_apply]
  show V c main_arg10 (((cfg1.win 2).blk t).view.emb (ix1 e)) = V c main_arg10 (ix1 e)
  refine congrArg (V c main_arg10) (funext fun a => Fin.ext ?_)
  match a with
  | ⟨0, _⟩ => show win1_2.index t (0 : Fin 1) * 512 + 1 * e.val = e.val; rw [e0]; omega

/-- What the one grid point writes back is its block of the linear layer of the three arrays as the region finds them. -/
theorem flushed_eq (c : Dev nD) (t : Fin cfg1.N) :
    (dat1 (F := Ideal) V c).flushed 3 t
      = ((cfg1.win 3).blk t).view.read (Elt Ideal) (lin (V c main_v20) (V c main_v21) (V c main_arg10)) := by
  show (cfg1.win 3).cut (grid1.coords t) ((dat1 V c).after 3 t) = _
  rw [after1_3]
  unfold out1_3
  rw [View.canon_unit_zero hz2]
  simp only [View.ld_unit_zero (S := S24x512) hz2, View.ld_unit_zero (S := S512x512) hz2, View.ld_unit_zero (S := S512) hz1]
  funext j
  obtain ⟨r, e, rfl⟩ : ∃ (r : Fin 24) (e : Fin 512), j = ix2 r e := ⟨j 0, j 1, eq_ix2 j⟩
  obtain ⟨-, -, -, -, -, e0, e1⟩ := idx_facts t
  have hemb : ((cfg1.win 3).blk t).view.emb (ix2 r e) = ix2 r e := funext fun a => Fin.ext (by
    match a with
    | ⟨0, _⟩ => show win1_3.index t (0 : Fin 2) * 24 + 1 * r.val = r.val; rw [e0]; omega
    | ⟨1, _⟩ => show win1_3.index t (1 : Fin 2) * 512 + 1 * e.val = e.val; rw [e1]; omega)
  show k1_pay1 (iblk1 V c 0 t) (iblk1 V c 1 t) (iblk1 V c 2 t) (ix2 r e)
    = lin (V c main_v20) (V c main_v21) (V c main_arg10) (((cfg1.win 3).blk t).view.emb (ix2 r e))
  rw [hemb, lin_apply]
  refine (pay_apply _ _ _ r e).trans ?_
  refine congrArg₂ (· + ·) (Finset.sum_congr rfl fun k _ => ?_) (blk2_apply V c t e)
  exact congrArg₂ (· * ·) (blk0_apply V c t r k) (blk1_apply V c t k e)

/-- Every entry of the output array is in the one point's block. -/
theorem cover (t : Fin cfg1.N) (i : S24x512.Idx) : i ∈ ((cfg1.win 3).blk t).view.set := by
  obtain ⟨-, -, -, -, -, e0, e1⟩ := idx_facts t
  show i ∈ ((View.whole main_v22).slice (win1_3.rect t)).set
  rw [View.set_slice_whole, Rect.mem_set_unit]
  intro a
  have h0 : (i 0).val < 24 := (i 0).isLt
  have h1 : (i 1).val < 512 := (i 1).isLt
  match a with
  | ⟨0, _⟩ => show win1_3.index t (0 : Fin 2) * 24 ≤ (i 0).val ∧ (i 0).val < win1_3.index t (0 : Fin 2) * 24 + 24; rw [e0]; omega
  | ⟨1, _⟩ => show win1_3.index t (1 : Fin 2) * 512 ≤ (i 1).val ∧ (i 1).val < win1_3.index t (1 : Fin 2) * 512 + 512; rw [e1]; omega

/-- The output array after the region: the linear layer of the three input arrays as the region finds them. -/
theorem final1 (c : Dev nD) :
    (dat1 (F := Ideal) V c).arrAt 3 cfg1.N = lin (V c main_v20) (V c main_v21) (V c main_arg10) :=
  (dat1 (F := Ideal) V c).arrAt_eq_of_cover 3 (lin (V c main_v20) (V c main_v21) (V c main_arg10))
    (fun t _ => flushed_eq V c t) fun i => ⟨t1_0, flush1_3 t1_0, cover t1_0 i⟩

end Region

/-! ## The host operations around the region, read at coordinates -/

/-- Region 0's second output [24, 8, 1, 64] recast [4, 6, 8, 64], its last two axes exchanged, recast [4, 6, 1, 512]
    and then [24, 512]: at row 6 b + g and column d it reads the output at head d mod 8, lane d div 8. -/
theorem laneMajor_apply (u : S24x8x1x64.Idx → EReal) (b : Fin 4) (g : Fin 6) (d : Fin 512) :
    shapeCast S24x512 (shapeCast S4x6x1x512 (transpose S4x6x64x8 [0, 1, 3, 2]
        (shapeCast S4x6x8x64 u shapeCasts_S24x8x1x64_S4x6x8x64) transposes_S4x6x8x64_S4x6x64x8_0_1_3_2)
        shapeCasts_S4x6x64x8_S4x6x1x512) shapeCasts_S4x6x1x512_S24x512
        (ix2 (⟨b.val * 6 + g.val, by omega⟩ : Fin 24) d)
      = u (ix4 (⟨b.val * 6 + g.val, by omega⟩ : Fin 24) (Cert.Attn.headOf d) (0 : Fin 1) (Cert.Attn.laneOf d)) := by
  refine (shapeCast_apply _ _ _ (ix4 b g (0 : Fin 1) d) ?_).trans ?_
  · rw [Shape.rowMajor_val_four, Shape.rowMajor_val_two]
    show ((b.val * 6 + g.val) * 1 + 0) * 512 + d.val = (b.val * 6 + g.val) * 512 + d.val
    omega
  refine (shapeCast_apply _ _ _ (ix4 b g (Cert.Attn.laneOf d) (Cert.Attn.headOf d)) ?_).trans ?_
  · rw [Shape.rowMajor_val_four, Shape.rowMajor_val_four]
    show ((b.val * 6 + g.val) * 64 + d.val / 8) * 8 + d.val % 8 = ((b.val * 6 + g.val) * 1 + 0) * 512 + d.val
    omega
  refine (transpose_apply _ _ _ _ (ix4 b g (Cert.Attn.headOf d) (Cert.Attn.laneOf d)) fun a => ?_).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_four]
  show (((b.val * 6 + g.val) * 8 + d.val % 8) * 1 + 0) * 64 + d.val / 8 = ((b.val * 6 + g.val) * 8 + d.val % 8) * 64 + d.val / 8
  omega

section Run
variable (m : (ℓ : Loc nD τ sig) → Buf (Elt Ideal) ℓ) (ρ : Dev nD → PrngReg)

/-- The linear layer's first input as the region finds it: region 0's second output laid out lane-major. -/
theorem W3_main_v20 (c : Dev nD) :
    (W3 m ρ c (Proc.devRef .tc main_v20) : S24x512.Idx → EReal)
      = shapeCast S24x512 (shapeCast S4x6x1x512 (transpose S4x6x64x8 [0, 1, 3, 2]
          (shapeCast S4x6x8x64 (W2 m ρ c (Proc.devRef .tc main_v15_1) : S24x8x1x64.Idx → EReal) shapeCasts_S24x8x1x64_S4x6x8x64)
          transposes_S4x6x8x64_S4x6x64x8_0_1_3_2) shapeCasts_S4x6x64x8_S4x6x1x512) shapeCasts_S4x6x1x512_S24x512 := by
  show StableHlo.after hostOps1 _ (Proc.devRef .tc main_v20) = _
  after_results
  rfl

/-- Its second input: the weight matrix transposed. -/
theorem W3_main_v21 (c : Dev nD) :
    (W3 m ρ c (Proc.devRef .tc main_v21) : S512x512.Idx → EReal)
      = transpose S512x512 [1, 0] (W2 m ρ c (Proc.devRef .tc main_arg9) : S512x512.Idx → EReal) transposes_S512x512_S512x512_1_0 := by
  show StableHlo.after hostOps1 _ (Proc.devRef .tc main_v21) = _
  after_results

/-- The weight matrix reaches the second stretch of host operations as launched: the first stretch and region 0 write
    other buffers. -/
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The bias reaches region 1 as launched. -/
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Region 1's output array at its exit: the linear layer of its three input arrays at its entry. -/
theorem W4_main_v22 (c : Dev nD) :
    (W4 m ρ c (Proc.devRef .tc main_v22) : S24x512.Idx → EReal)
      = lin (W3 m ρ c (Proc.devRef .tc main_v20)) (W3 m ρ c (Proc.devRef .tc main_v21)) (W3 m ρ c (Proc.devRef .tc main_arg10)) :=
  (W4_arr m ρ c 3).trans (final1 (V3 m ρ) c)

/-- The output result is region 1's output array with its rows [24] re-indexed [4, 6]. -/
theorem W5_main_v23 (c : Dev nD) :
    (W5 m ρ c (Proc.devRef .tc main_v23) : S4x6x1x512.Idx → EReal)
      = shapeCast S4x6x1x512 (W4 m ρ c (Proc.devRef .tc main_v22) : S24x512.Idx → EReal) shapeCasts_S24x512_S4x6x1x512 := by
  show StableHlo.after hostOps2 _ (Proc.devRef .tc main_v23) = _
  after_results
  rfl

/-- The attention-weights result before the last stretch: region 0's first output with its rows re-indexed. -/
theorem W3_main_v16 (c : Dev nD) :
    (W3 m ρ c (Proc.devRef .tc main_v16) : S4x6x8x1024x1024.Idx → EReal)
      = shapeCast S4x6x8x1024x1024 (W2 m ρ c (Proc.devRef .tc main_v15_0) : S24x8x1024x1024.Idx → EReal) shapeCasts_S24x8x1024x1024_S4x6x8x1024x1024 := by
  show StableHlo.after hostOps1 _ (Proc.devRef .tc main_v16) = _
  after_results
  rfl

/-- Neither region 1 nor the last stretch writes the attention-weights result. -/
theorem W5_main_v16 (c : Dev nD) : W5 m ρ c (Proc.devRef .tc main_v16) = W3 m ρ c (Proc.devRef .tc main_v16) :=
  calc W5 m ρ c (Proc.devRef .tc main_v16)
    _ = W4 m ρ c (Proc.devRef .tc main_v16) := StableHlo.after_of_forall_not_mem (b := Proc.devRef .tc main_v16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v16) := W4_of_ne m ρ c main_v16 (by decide)

/-! ## The two results -/

variable (c : Dev nD)

/-- The attention-weights result is region 0's first output, re-indexed [24, …] → [4, 6, …]. -/
theorem result_attn (b : Fin 4) (g : Fin 6) (h : Fin 8) (s t : Fin 1024) :
    (W5 m ρ c (Proc.devRef .tc main_v16) : S4x6x8x1024x1024.Idx → EReal) (ix5 b g h s t)
      = (W2 m ρ c (Proc.devRef .tc main_v15_0) : S24x8x1024x1024.Idx → EReal) (ix4 (⟨b.val * 6 + g.val, by omega⟩ : Fin 24) h s t) := by
  rw [W5_main_v16, W3_main_v16]
  refine shapeCast_apply (s := S24x8x1024x1024) (t := S4x6x8x1024x1024) _ _ _ _ ?_
  rw [Shape.rowMajor_val_four, Shape.rowMajor_val_five]
  show (((b.val * 6 + g.val) * 8 + h.val) * 1024 + s.val) * 1024 + t.val
    = (((b.val * 6 + g.val) * 8 + h.val) * 1024 + s.val) * 1024 + t.val
  rfl

/-- The output result: the linear layer applied to region 0's second output laid out lane-major
    (column d = 8 · lane + head), with the weight matrix and the bias as launched. -/
theorem result_out (b : Fin 4) (g : Fin 6) (e : Fin 512) :
    (W5 m ρ c (Proc.devRef .tc main_v23) : S4x6x1x512.Idx → EReal) (ix4 b g (0 : Fin 1) e)
      = HAdd.hAdd (α := EReal) (β := EReal) (γ := EReal)
          (∑ d : Fin 512, HMul.hMul (α := EReal) (β := EReal) (γ := EReal)
            ((W2 m ρ c (Proc.devRef .tc main_v15_1) : S24x8x1x64.Idx → EReal) (ix4 (⟨b.val * 6 + g.val, by omega⟩ : Fin 24) (Cert.Attn.headOf d) (0 : Fin 1) (Cert.Attn.laneOf d)))
            ((m ((c.tc : Thread nD τ).loc main_arg9) : S512x512.Idx → EReal) (ix2 e d)))
          ((m ((c.tc : Thread nD τ).loc main_arg10) : S512.Idx → EReal) (ix1 e)) := by
  rw [W5_main_v23]
  refine (shapeCast_apply _ _ _ (ix2 (⟨b.val * 6 + g.val, by omega⟩ : Fin 24) e) ?_).trans ?_
  · rw [Shape.rowMajor_val_two, Shape.rowMajor_val_four]
    show (b.val * 6 + g.val) * 512 + e.val = ((b.val * 6 + g.val) * 1 + 0) * 512 + e.val
    omega
  rw [W4_main_v22, lin_apply, W3_main_v20, W3_main_v21, W3_main_arg10, W2_main_arg9]
  refine congrArg₂ (· + ·) (Finset.sum_congr rfl fun d _ => ?_) rfl
  exact congrArg₂ (· * ·) (laneMajor_apply _ b g d) (transpose_ix2_apply _ _ d e)

end Run

end Cert.KernelTail

end
-- ==== Proof.KernelRun.lean ====
/-
  The idealized kernel program's run with its two results named.

  The program is five segments: host operations, the attention kernel's region, host operations, the output
  projection's region, one last host operation. The contents of every unscoped buffer at each boundary are a
  fold from the launch memory, and after the last segment every such buffer holds the fold's last stage. The
  frame keeps, of that, only that the arguments end as launched; here the two result buffers are kept too: each
  ends holding the last stage's contents of that buffer.
-/
import proofs.«171958_j3298534883607_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the output buffer and the
    attention-weights buffer end at the last boundary's contents, and the arguments end as launched. -/
theorem run : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Run

end
-- ==== Proof.KernelValue.lean ====
/-
  The idealized kernel program's two results as the attention of its arguments.

  At the last boundary the attention-weights buffer is the first output array of the attention kernel's region,
  re-indexed from 24 rows to 4 × 6 groups, and that array is the flat attention of the region's arrays, which are
  re-layouts of the arguments: so it is the specification's attention-weights array. The output buffer is the
  output projection of the region's second array laid out lane-major, which is the specification's output array.
-/
import proofs.«171958_j3298534883607_2_alg».proof.Proof.KernelRegion0
import proofs.«171958_j3298534883607_2_alg».proof.Proof.KernelEntry
import proofs.«171958_j3298534883607_2_alg».proof.Proof.KernelTail
import proofs.«171958_j3298534883607_2_alg».proof.Proof.KernelRun

noncomputable section

namespace Cert.KernelValue

open Idealize.ShloMosaic Idealize.ShloMosaic.TcCoe Idealize.ShloMosaic.ValueIdx Idealize.SL.Sem
open Cert.KernelIdeal Cert.KernelIdeal.Gen Cert.Attn

variable (m : (ℓ : Loc nD τ sig) → Buf (Elt Ideal) ℓ) (ρ : Dev nD → PrngReg) (c : Dev nD)

/-- Region 0's first output array at its exit: the flat attention weights of the region's arrays. -/
theorem exit_attn : (W2 m ρ c (Proc.devRef .tc main_v15_0) : S24x8x1024x1024.Idx → EReal) = Cert.KernelRegion0.attnOf (V1 m ρ) c :=
  (W2_arr m ρ c 9).trans (Cert.KernelRegion0.final_attn (V1 m ρ) c)

/-- Region 0's second output array at its exit: the flat averaged attended values of the region's arrays. -/
theorem exit_ctx : (W2 m ρ c (Proc.devRef .tc main_v15_1) : S24x8x1x64.Idx → EReal) = Cert.KernelRegion0.ctxOf (V1 m ρ) c :=
  (W2_arr m ρ c 10).trans (Cert.KernelRegion0.final_ctx (V1 m ρ) c)

/-- The attention-weights result is the specification's array of the arguments. -/
theorem attn_eq : (W5 m ρ c (Proc.devRef .tc main_v16) : S4x6x8x1024x1024.Idx → EReal)
    = attnArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  funext i
  obtain ⟨b, g, h, s, t, rfl⟩ : ∃ (b : Fin 4) (g : Fin 6) (h : Fin 8) (s t : Fin 1024), i = ix5 b g h s t :=
    ⟨i 0, i 1, i 2, i 3, i 4, eq_ix5 i⟩
  rw [Cert.KernelTail.result_attn m ρ c b g h s t, exit_attn]
  show probF (V1 m ρ c main_v0) (V1 m ρ c main_v1) (V1 m ρ c main_v5) (V1 m ρ c main_v12) (V1 m ρ c main_v8) (V1 m ρ c main_v13)
      (grp b g) h s t = prob _ _ _ _ _ _ b g h s t
  exact probF_eq (Cert.KernelEntry.act_q m ρ c) (Cert.KernelEntry.act_k m ρ c) (Cert.KernelEntry.mat_q m ρ c)
    (Cert.KernelEntry.mat_k m ρ c) (Cert.KernelEntry.bias_q m ρ c) (Cert.KernelEntry.bias_k m ρ c) b g h s t

/-- The output result is the specification's array of the arguments. -/
theorem out_eq : (W5 m ρ c (Proc.devRef .tc main_v23) : S4x6x1x512.Idx → EReal)
    = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨b, g, u, e, rfl⟩ : ∃ (b : Fin 4) (g : Fin 6) (u : Fin 1) (e : Fin 512), i = ix4 b g u e :=
    ⟨i 0, i 1, i 2, i 3, eq_ix4 i⟩
  obtain rfl : u = 0 := Subsingleton.elim _ _
  refine (Cert.KernelTail.result_out m ρ c b g e).trans ?_
  show _ = out _ _ _ _ _ _ _ _ _ _ _ b g e
  unfold out
  refine congrArg₂ (· + ·) (Finset.sum_congr rfl fun d _ => congrArg₂ (· * ·) ?_ rfl) rfl
  rw [exit_ctx]
  exact ctxF_eq (Cert.KernelEntry.act_q m ρ c) (Cert.KernelEntry.act_k m ρ c) (Cert.KernelEntry.act_v m ρ c)
    (Cert.KernelEntry.mat_q m ρ c) (Cert.KernelEntry.mat_k m ρ c) (Cert.KernelEntry.mat_v m ρ c)
    (Cert.KernelEntry.bias_q m ρ c) (Cert.KernelEntry.bias_k m ρ c) (Cert.KernelEntry.bias_v m ρ c) b g (headOf d) (laneOf d)

/-- The run: every weakly fair execution terminates without a fault, the two results end as the specification's
    arrays of the arguments, and the arguments end as launched. -/
theorem run : θ_run defs (onTc (τ := τ) (main (F := Ideal))) ⟨m, fun _ => 0, ρ⟩ (fun r => ∀ c : Dev nD,
      r.2.mem ((c.tc : Thread nD τ).loc main_v23)
        = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v16)
        = attnArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_eq m ρ c), (h c).2.1.trans (attn_eq m ρ c), (h c).2.2⟩)
    (Cert.KernelIdeal.Run.run (F := Ideal) m ρ)

end Cert.KernelValue

end
-- ==== Proof.RefAttn.lean ====
/-
  The reference program read as the attention formulas: entry by entry, each stage of the program is the
  corresponding formula of the specification over the extended reals.

  Stages. A linear projection followed by the split of its 512 columns into 8 heads of 64 lanes and the exchange of
  the head and position axes is `proj` (column `64h + j`). The product of queries and keys over the 64 lanes,
  divided by the square root of 64 and then by 150, is `score`. A row's maximum folded from minus infinity, the
  exponentials of the differences and their quotient by the row's sum are `smax`. The attended values summed over the
  keys and then the queries and divided by 1024 are `ctx`; laid out lane-major (`d = 8j + h`) and sent through the
  last projection they are `out`.
-/
import proofs.«171958_j3298534883607_2_alg».proof.Proof.Gen.ReferenceIdeal.Read
import proofs.«171958_j3298534883607_2_alg».proof.Proof.AttnSpec

noncomputable section

namespace Cert.RefAttn

open Cert.ReferenceIdeal Cert.ReferenceIdeal.Gen Cert.ReferenceIdeal.Read Idealize.ShloMosaic Idealize.ShloMosaic.ValueIdx

/-! ## The projections -/

/-- Splitting the 512 columns into 8 × 64 and exchanging the head and position axes reads the flat array at
    position `s`, column `64h + j`. -/
theorem idx_split (b : Fin 4) (g : Fin 6) (h : Fin 8) (s : Fin 1024) (j : Fin 64) :
    idx_main_v4 (idx_main_v5 (ix5 b g h s j)) = ix4 b g s (Cert.Attn.col h j) := by
  have hb := b.isLt; have hg := g.isLt; have hh := h.isLt; have hs := s.isLt; have hj := j.isLt
  funext a
  apply Fin.ext
  match a with
  | ⟨0, _⟩ =>
    show ((((b.val * 6 + g.val) * 1024 + s.val) * 8 + h.val) * 64 + j.val) / 3145728 = b.val
    omega
  | ⟨1, _⟩ =>
    show ((((b.val * 6 + g.val) * 1024 + s.val) * 8 + h.val) * 64 + j.val) / 524288 % 6 = g.val
    omega
  | ⟨2, _⟩ =>
    show ((((b.val * 6 + g.val) * 1024 + s.val) * 8 + h.val) * 64 + j.val) / 512 % 1024 = s.val
    omega
  | ⟨3, _⟩ =>
    show ((((b.val * 6 + g.val) * 1024 + s.val) * 8 + h.val) * 64 + j.val) % 512 = h.val * 64 + j.val
    omega

/-- The first projection, head `h`, position `s`, lane `j`. -/
theorem proj_q (x0 : (⟨S4x6x1024x512, .f32⟩ : BufTy).Contents (Elt Ideal)) (x3 : (⟨S512x512, .f32⟩ : BufTy).Contents (Elt Ideal))
    (x4 : (⟨S512, .f32⟩ : BufTy).Contents (Elt Ideal)) (b : Fin 4) (g : Fin 6) (h : Fin 8) (s : Fin 1024) (j : Fin 64) :
    val_main_v5 (F := Ideal) x0 x3 x4 (ix5 b g h s j) = Cert.Attn.proj x0 x3 x4 b g h s j := by
  rw [val_main_v5_apply, val_main_v4_apply, idx_split, val_main_v3_apply, val_main_v0_apply, val_main_v2_apply,
    val_main_v1_apply]
  unfold Cert.Attn.proj
  rw [Ideal.addf_def]
  congr 1
  · refine Finset.sum_congr rfl fun d _ => ?_
    congr 2
    · funext a; apply Fin.ext; match a with | ⟨0, _⟩ => rfl | ⟨1, _⟩ => rfl | ⟨2, _⟩ => rfl | ⟨3, _⟩ => rfl
    · funext a; apply Fin.ext; match a with | ⟨0, _⟩ => rfl | ⟨1, _⟩ => rfl
  · congr 1
    funext a; apply Fin.ext; match a with | ⟨0, _⟩ => rfl

/-- The same split for the second projection's arrays. -/
theorem idx_split_k (b : Fin 4) (g : Fin 6) (h : Fin 8) (s : Fin 1024) (j : Fin 64) :
    idx_main_v10 (idx_main_v11 (ix5 b g h s j)) = ix4 b g s (Cert.Attn.col h j) := idx_split b g h s j

/-- The same split for the third projection's arrays. -/
theorem idx_split_v (b : Fin 4) (g : Fin 6) (h : Fin 8) (s : Fin 1024) (j : Fin 64) :
    idx_main_v16 (idx_main_v17 (ix5 b g h s j)) = ix4 b g s (Cert.Attn.col h j) := idx_split b g h s j

/-- The second projection (keys), head `h`, position `s`, lane `j`. -/
theorem proj_k (x1 : (⟨S4x6x1024x512, .f32⟩ : BufTy).Contents (Elt Ideal)) (x5 : (⟨S512x512, .f32⟩ : BufTy).Contents (Elt Ideal))
    (x6 : (⟨S512, .f32⟩ : BufTy).Contents (Elt Ideal)) (b : Fin 4) (g : Fin 6) (h : Fin 8) (s : Fin 1024) (j : Fin 64) :
    val_main_v11 (F := Ideal) x1 x5 x6 (ix5 b g h s j) = Cert.Attn.proj x1 x5 x6 b g h s j := by
  rw [val_main_v11_apply, val_main_v10_apply, idx_split_k, val_main_v9_apply, val_main_v6_apply, val_main_v8_apply,
    val_main_v7_apply]
  unfold Cert.Attn.proj
  rw [Ideal.addf_def]
  congr 1
  · refine Finset.sum_congr rfl fun d _ => ?_
    congr 2
    · funext a; apply Fin.ext; match a with | ⟨0, _⟩ => rfl | ⟨1, _⟩ => rfl | ⟨2, _⟩ => rfl | ⟨3, _⟩ => rfl
    · funext a; apply Fin.ext; match a with | ⟨0, _⟩ => rfl | ⟨1, _⟩ => rfl
  · congr 1
    funext a; apply Fin.ext; match a with | ⟨0, _⟩ => rfl

/-- The third projection (values), head `h`, position `s`, lane `j`. -/
theorem proj_v (x2 : (⟨S4x6x1024x512, .f32⟩ : BufTy).Contents (Elt Ideal)) (x7 : (⟨S512x512, .f32⟩ : BufTy).Contents (Elt Ideal))
    (x8 : (⟨S512, .f32⟩ : BufTy).Contents (Elt Ideal)) (b : Fin 4) (g : Fin 6) (h : Fin 8) (s : Fin 1024) (j : Fin 64) :
    val_main_v17 (F := Ideal) x2 x7 x8 (ix5 b g h s j) = Cert.Attn.proj x2 x7 x8 b g h s j := by
  rw [val_main_v17_apply, val_main_v16_apply, idx_split_v, val_main_v15_apply, val_main_v12_apply, val_main_v14_apply,
    val_main_v13_apply]
  unfold Cert.Attn.proj
  rw [Ideal.addf_def]
  congr 1
  · refine Finset.sum_congr rfl fun d _ => ?_
    congr 2
    · funext a; apply Fin.ext; match a with | ⟨0, _⟩ => rfl | ⟨1, _⟩ => rfl | ⟨2, _⟩ => rfl | ⟨3, _⟩ => rfl
    · funext a; apply Fin.ext; match a with | ⟨0, _⟩ => rfl | ⟨1, _⟩ => rfl
  · congr 1
    funext a; apply Fin.ext; match a with | ⟨0, _⟩ => rfl

variable (x0 x1 x2 : (⟨S4x6x1024x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))

/-! ## The scaled scores -/

/-- The product over the 64 lanes divided by `√64 = 8` and then by 150 is the score scaled by 1/1200. -/
theorem score_eq (b : Fin 4) (g : Fin 6) (h : Fin 8) (s t : Fin 1024) :
    val_main_v23 (F := Ideal) x0 x1 x3 x4 x5 x6 (ix5 b g h s t)
      = Cert.Attn.score (Cert.Attn.proj x0 x3 x4) (Cert.Attn.proj x1 x5 x6) b g h s t := by
  rw [val_main_v23_apply, val_main_v21_apply, val_main_v22_apply, val_main_cst_0_apply, val_main_v20_apply,
    val_main_v19_apply, val_main_cst_apply, val_main_v18_apply]
  simp only [Ideal.hostDivf_def, Ideal.hostUnary_sqrt_def, Ideal.ofBits_def]
  rw [Cert.Attn.ofBits_64, Cert.Attn.sqrt_64, Cert.Attn.ofBits_150, Cert.Attn.div_8_div_150]
  unfold Cert.Attn.score
  congr 1
  refine Finset.sum_congr rfl fun k _ => ?_
  have el : lidx_main_v18 (ix5 b g h s t) k = ix5 b g h s k := funext fun a => Fin.ext (by
    match a with | ⟨0, _⟩ => rfl | ⟨1, _⟩ => rfl | ⟨2, _⟩ => rfl | ⟨3, _⟩ => rfl | ⟨4, _⟩ => rfl)
  have er : ridx_main_v18 (ix5 b g h s t) k = ix5 b g h t k := funext fun a => Fin.ext (by
    match a with | ⟨0, _⟩ => rfl | ⟨1, _⟩ => rfl | ⟨2, _⟩ => rfl | ⟨3, _⟩ => rfl | ⟨4, _⟩ => rfl)
  rw [el, er, proj_q, proj_k]

/-! ## The softmax -/

/-- The maximum over the keys, folded from minus infinity, is the row's maximum. -/
theorem rowMax_eq (b : Fin 4) (g : Fin 6) (h : Fin 8) (s : Fin 1024) :
    val_main_v24 (F := Ideal) x0 x1 x3 x4 x5 x6 (ix4 b g h s)
      = Cert.Attn.rowMax (fun u => Cert.Attn.score (Cert.Attn.proj x0 x3 x4) (Cert.Attn.proj x1 x5 x6) b g h s u) := by
  have hr : S4x6x8x1024x1024.Reduces [4] S4x6x8x1024 := by decide
  unfold val_main_v24
  rw [Host.reduce_eq_fold_single FloatOps.maximumf _ _ reducesTo_S4x6x8x1024x1024_S4x6x8x1024_d4 hr h_S_]
  have hrow : (val_main_v23 (F := Ideal) x0 x1 x3 x4 x5 x6 ∘ hr.lift (ix4 b g h s))
      = fun u : Fin 1024 => Cert.Attn.score (Cert.Attn.proj x0 x3 x4) (Cert.Attn.proj x1 x5 x6) b g h s u := by
    refine funext fun (u : Fin 1024) => ?_
    have e : hr.lift (ix4 b g h s) u = ix5 b g h s u := funext fun a => Fin.ext (by
      match a with | ⟨0, _⟩ => rfl | ⟨1, _⟩ => rfl | ⟨2, _⟩ => rfl | ⟨3, _⟩ => rfl | ⟨4, _⟩ => rfl)
    show val_main_v23 (F := Ideal) x0 x1 x3 x4 x5 x6 (hr.lift (ix4 b g h s) u) = _
    rw [e, score_eq]
  rw [hrow, val_main_cst_1_apply, Ideal.ofBits_def, Cert.Attn.ofBits_neg_inf]
  rfl

/-- Taking the maximum with minus infinity once more changes nothing. -/
theorem max_eq (b : Fin 4) (g : Fin 6) (h : Fin 8) (s : Fin 1024) :
    val_main_v26 (F := Ideal) x0 x1 x3 x4 x5 x6 (ix4 b g h s)
      = Cert.Attn.rowMax (fun u => Cert.Attn.score (Cert.Attn.proj x0 x3 x4) (Cert.Attn.proj x1 x5 x6) b g h s u) := by
  rw [val_main_v26_apply, val_main_v25_apply, val_main_cst_2_apply, rowMax_eq, Ideal.maximumf_def, Ideal.ofBits_def,
    Cert.Attn.ofBits_neg_inf]
  exact max_eq_right bot_le

/-- The exponential of a score's distance below its row's maximum. -/
theorem exp_eq (b : Fin 4) (g : Fin 6) (h : Fin 8) (s t : Fin 1024) :
    val_main_v30 (F := Ideal) x0 x1 x3 x4 x5 x6 (ix5 b g h s t)
      = Ideal.exp (Cert.Attn.score (Cert.Attn.proj x0 x3 x4) (Cert.Attn.proj x1 x5 x6) b g h s t
          - Cert.Attn.rowMax (fun u => Cert.Attn.score (Cert.Attn.proj x0 x3 x4) (Cert.Attn.proj x1 x5 x6) b g h s u)) := by
  have e : idx_main_v27 (idx_main_v28 (ix5 b g h s t)) = ix4 b g h s := funext fun a => Fin.ext (by
    match a with | ⟨0, _⟩ => rfl | ⟨1, _⟩ => rfl | ⟨2, _⟩ => rfl | ⟨3, _⟩ => rfl)
  rw [val_main_v30_apply, val_main_v29_apply, val_main_v28_apply, val_main_v27_apply, e, max_eq, score_eq,
    Ideal.hostUnary_exp_def, Ideal.subf_def]

/-- The sum of a row's exponentials, from zero. -/
theorem sum_eq (b : Fin 4) (g : Fin 6) (h : Fin 8) (s : Fin 1024) :
    val_main_v31 (F := Ideal) x0 x1 x3 x4 x5 x6 (ix4 b g h s)
      = ∑ u : Fin 1024, Ideal.exp (Cert.Attn.score (Cert.Attn.proj x0 x3 x4) (Cert.Attn.proj x1 x5 x6) b g h s u
          - Cert.Attn.rowMax (fun u => Cert.Attn.score (Cert.Attn.proj x0 x3 x4) (Cert.Attn.proj x1 x5 x6) b g h s u)) := by
  rw [val_main_v31_apply, val_main_cst_3_apply, Ideal.ofBits_def, Cert.Attn.ofBits_zero, zero_add]
  refine Finset.sum_congr rfl fun u _ => ?_
  have e : idx_main_v31 (ix4 b g h s) u = ix5 b g h s u := funext fun a => Fin.ext (by
    match a with | ⟨0, _⟩ => rfl | ⟨1, _⟩ => rfl | ⟨2, _⟩ => rfl | ⟨3, _⟩ => rfl | ⟨4, _⟩ => rfl)
  rw [e, exp_eq]

/-- The quotient of an exponential by its row's sum is the attention weight. -/
theorem prob_eq (b : Fin 4) (g : Fin 6) (h : Fin 8) (s t : Fin 1024) :
    val_main_v34 (F := Ideal) x0 x1 x3 x4 x5 x6 (ix5 b g h s t) = Cert.Attn.prob x0 x1 x3 x4 x5 x6 b g h s t := by
  have e : idx_main_v32 (idx_main_v33 (ix5 b g h s t)) = ix4 b g h s := funext fun a => Fin.ext (by
    match a with | ⟨0, _⟩ => rfl | ⟨1, _⟩ => rfl | ⟨2, _⟩ => rfl | ⟨3, _⟩ => rfl)
  rw [val_main_v34_apply, val_main_v33_apply, val_main_v32_apply, e, sum_eq, exp_eq, Ideal.hostDivf_def]
  rfl

/-- The attention weights of the reference are the specification's. -/
theorem ref_attn (x0 x1 : (⟨S4x6x1024x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) :
    val_main_v34 (F := Ideal) x0 x1 x3 x4 x5 x6 = Cert.Attn.attnArr x0 x1 x3 x4 x5 x6 := by
  funext i
  obtain ⟨b, g, h, s, t, rfl⟩ : ∃ b g h s t, i = ix5 b g h s t := ⟨i 0, i 1, i 2, i 3, i 4, eq_ix5 i⟩
  rw [prob_eq]
  rfl

/-! ## The attended values, averaged over the queries -/

/-- The weights times the values, summed over the keys. -/
theorem attend_eq (b : Fin 4) (g : Fin 6) (h : Fin 8) (s : Fin 1024) (j : Fin 64) :
    val_main_v35 (F := Ideal) x0 x1 x2 x3 x4 x5 x6 x7 x8 (ix5 b g h s j)
      = ∑ t : Fin 1024, Cert.Attn.prob x0 x1 x3 x4 x5 x6 b g h s t * Cert.Attn.proj x2 x7 x8 b g h t j := by
  rw [val_main_v35_apply]
  refine Finset.sum_congr rfl fun t _ => ?_
  have el : lidx_main_v35 (ix5 b g h s j) t = ix5 b g h s t := funext fun a => Fin.ext (by
    match a with | ⟨0, _⟩ => rfl | ⟨1, _⟩ => rfl | ⟨2, _⟩ => rfl | ⟨3, _⟩ => rfl | ⟨4, _⟩ => rfl)
  have er : ridx_main_v35 (ix5 b g h s j) t = ix5 b g h t j := funext fun a => Fin.ext (by
    match a with | ⟨0, _⟩ => rfl | ⟨1, _⟩ => rfl | ⟨2, _⟩ => rfl | ⟨3, _⟩ => rfl | ⟨4, _⟩ => rfl)
  rw [el, er, prob_eq, proj_v]

/-- Summed over the queries from zero and divided by 1024: the average. -/
theorem ctx_eq (b : Fin 4) (g : Fin 6) (h : Fin 8) (j : Fin 64) :
    val_main_v38 (F := Ideal) x0 x1 x2 x3 x4 x5 x6 x7 x8 (ix4 b g h j)
      = Cert.Attn.ctx x0 x1 x2 x3 x4 x5 x6 x7 x8 b g h j := by
  rw [val_main_v38_apply, val_main_v37_apply, val_main_cst_5_apply, val_main_v36_apply, val_main_cst_4_apply]
  simp only [Ideal.hostDivf_def, Ideal.ofBits_def]
  rw [Cert.Attn.ofBits_1024, Cert.Attn.ofBits_zero, zero_add, Cert.Attn.div_1024]
  unfold Cert.Attn.ctx
  congr 1
  refine Finset.sum_congr rfl fun s _ => ?_
  have e : idx_main_v36 (ix4 b g h j) s = ix5 b g h s j := funext fun a => Fin.ext (by
    match a with | ⟨0, _⟩ => rfl | ⟨1, _⟩ => rfl | ⟨2, _⟩ => rfl | ⟨3, _⟩ => rfl | ⟨4, _⟩ => rfl)
  rw [e, attend_eq]

/-! ## The lane-major layout and the output projection -/

/-- Exchanging the head and lane axes and flattening 64 × 8 into 512 puts lane `d / 8` of head `d % 8` at
    column `d`. -/
theorem idx_lanes (b : Fin 4) (g : Fin 6) (z : Fin 1) (d : Fin 512) :
    idx_main_v39 (idx_main_v40 (ix4 b g z d)) = ix4 b g (Cert.Attn.headOf d) (Cert.Attn.laneOf d) := by
  have hb := b.isLt; have hg := g.isLt; have hz := z.isLt; have hd := d.isLt
  funext a
  apply Fin.ext
  match a with
  | ⟨0, _⟩ =>
    show (((b.val * 6 + g.val) * 1 + z.val) * 512 + d.val) / 3072 = b.val
    omega
  | ⟨1, _⟩ =>
    show (((b.val * 6 + g.val) * 1 + z.val) * 512 + d.val) / 512 % 6 = g.val
    omega
  | ⟨2, _⟩ =>
    show (((b.val * 6 + g.val) * 1 + z.val) * 512 + d.val) % 8 = d.val % 8
    omega
  | ⟨3, _⟩ =>
    show (((b.val * 6 + g.val) * 1 + z.val) * 512 + d.val) / 8 % 64 = d.val / 8
    omega

/-- The re-laid-out averages at column `d`. -/
theorem lanes_eq (b : Fin 4) (g : Fin 6) (z : Fin 1) (d : Fin 512) :
    val_main_v40 (F := Ideal) x0 x1 x2 x3 x4 x5 x6 x7 x8 (ix4 b g z d)
      = Cert.Attn.ctx x0 x1 x2 x3 x4 x5 x6 x7 x8 b g (Cert.Attn.headOf d) (Cert.Attn.laneOf d) := by
  rw [val_main_v40_apply, val_main_v39_apply, idx_lanes, ctx_eq]

/-- The output row at column `e`. -/
theorem out_eq (b : Fin 4) (g : Fin 6) (z : Fin 1) (e : Fin 512) :
    val_main_v44 (F := Ideal) x0 x1 x2 x3 x4 x5 x6 x7 x8 x9 x10 (ix4 b g z e)
      = Cert.Attn.out x0 x1 x2 x3 x4 x5 x6 x7 x8 x9 x10 b g e := by
  rw [val_main_v44_apply, val_main_v43_apply, val_main_v42_apply, val_main_v41_apply, Ideal.addf_def]
  unfold Cert.Attn.out
  congr 1
  · refine Finset.sum_congr rfl fun d _ => ?_
    have el : lidx_main_v41 (ix4 b g z e) d = ix4 b g z d := funext fun a => Fin.ext (by
      match a with | ⟨0, _⟩ => rfl | ⟨1, _⟩ => rfl | ⟨2, _⟩ => rfl | ⟨3, _⟩ => rfl)
    have er : ridx_main_v41 (ix4 b g z e) d = ix2 e d := funext fun a => Fin.ext (by
      match a with | ⟨0, _⟩ => rfl | ⟨1, _⟩ => rfl)
    rw [el, er, lanes_eq]
  · congr 1
    funext a; apply Fin.ext; match a with | ⟨0, _⟩ => rfl

/-- The output of the reference is the specification's. -/
theorem ref_out (x0 x1 x2 : (⟨S4x6x1024x512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal)) :
    val_main_v44 (F := Ideal) x0 x1 x2 x3 x4 x5 x6 x7 x8 x9 x10 = Cert.Attn.outArr x0 x1 x2 x3 x4 x5 x6 x7 x8 x9 x10 := by
  funext i
  obtain ⟨b, g, z, e, rfl⟩ : ∃ b g z e, i = ix4 b g z e := ⟨i 0, i 1, i 2, i 3, eq_ix4 i⟩
  rw [out_eq]
  rfl

end Cert.RefAttn

end
-- ==== Proof.lean ====
/-
  The certificate of a fused multi-head attention kernel against its reference, over the extended reals.

  Both programs compute, from activations [4, 6, 1024, 512] and four weight/bias pairs, the attention weights
  `softmax_t((Σ_j Q(s, j) · K(t, j)) · c)` of 8 heads and the output projection of the attended values averaged
  over the queries. The kernel multiplies the scores by the named constant 1/1200 where the reference divides by
  `sqrt 64` and then by 150, and multiplies the sum over the queries by 2⁻¹⁰ where the reference divides by 1024:
  on the extended reals a division by a nonzero real is the product with its reciprocal, so both are one function.
  Everything else differs only in layout (24 rows against 4 × 6 groups, weights split by head before or after
  the product) and in the order of sums, which addition on the extended reals does not see.

  The kernel's side is the run of its five segments with the two result buffers read at the last boundary
  (Proof/KernelRun.lean, Proof/KernelValue.lean); the reference's side is its run read one operation at a time
  (Proof/RefAttn.lean); both meet at Proof/AttnSpec.lean.
-/
import proofs.«171958_j3298534883607_2_alg».proof.Defs
import proofs.«171958_j3298534883607_2_alg».proof.Proof.Gen.Kernel
import proofs.«171958_j3298534883607_2_alg».proof.Proof.Gen.Kernel.Skeleton
import proofs.«171958_j3298534883607_2_alg».proof.Proof.Gen.Kernel.Launch
import proofs.«171958_j3298534883607_2_alg».proof.Proof.Gen.Kernel.Points
import proofs.«171958_j3298534883607_2_alg».proof.Proof.Gen.Kernel.Frame
import proofs.«171958_j3298534883607_2_alg».proof.Proof.Gen.KernelIdeal
import proofs.«171958_j3298534883607_2_alg».proof.Proof.Gen.KernelIdeal.Skeleton
import proofs.«171958_j3298534883607_2_alg».proof.Proof.Gen.KernelIdeal.Launch
import proofs.«171958_j3298534883607_2_alg».proof.Proof.Gen.KernelIdeal.Points
import proofs.«171958_j3298534883607_2_alg».proof.Proof.Gen.KernelIdeal.Frame
import proofs.«171958_j3298534883607_2_alg».proof.Proof.Gen.ReferenceIdeal
import proofs.«171958_j3298534883607_2_alg».proof.Proof.Gen.Pre_finite_inputs
import proofs.«171958_j3298534883607_2_alg».proof.Proof.Gen.ReferenceIdeal.Run
import proofs.«171958_j3298534883607_2_alg».proof.Proof.Gen.ReferenceIdeal.Read
import proofs.«171958_j3298534883607_2_alg».proof.Proof.KernelValue
import proofs.«171958_j3298534883607_2_alg».proof.Proof.RefAttn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one idealization: the scale's literal is read as the rational 1/1200 the certificate's table gives it. -/
theorem preserves : Cert.preserves_Kernel_KernelIdeal :=
  IdealRules.named_const.statement Cert.KernelIdeal.κ "inv_1200" .f32 0x3A5A740E#32 ((1 / 1200 : ℝ) : EReal) rfl

/-- Both programs end with the specification's two arrays of arguments that agree. -/
theorem algebraic : Cert.algebraic_KernelIdeal_ReferenceIdeal := by
  intro m ρ m' ρ' _ hagree
  refine ⟨_, _, Cert.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v44_eq, Cert.RefAttn.ref_out]
    obtain ⟨a0, a1, a2, a3, a4, a5, a6, a7, a8, a9, a10⟩ := hagree c
    rw [a0, a1, a2, a3, a4, a5, a6, a7, a8, a9, a10]
  · rw [Cert.ReferenceIdeal.Read.val_main_v34_eq, Cert.RefAttn.ref_attn]
    obtain ⟨a0, a1, a2, a3, a4, a5, a6, a7, a8, a9, a10⟩ := hagree c
    rw [a0, a1, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
